-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32x2 .f32) (main_arg9 : FVec F S2 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x2 .f32) (main_arg9 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x64 .f32) (main_arg3 : FVec F S64 .f32) (main_arg4 : FVec F S64x32 .f32) (main_arg5 : FVec F S32 .f32) (main_arg6 : FVec F S32x32 .f32) (main_arg7 : FVec F S32 .f32) (main_arg8 : FVec F S32x2 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S10000x64 : Shape := ⟨2, ![10000, 64]⟩
abbrev S10000x1 : Shape := ⟨2, ![10000, 1]⟩
abbrev S1200000x64 : Shape := ⟨2, ![1200000, 64]⟩
abbrev S1x64 : Shape := ⟨2, ![1, 64]⟩
abbrev S1x32 : Shape := ⟨2, ![1, 32]⟩
abbrev S1x2 : Shape := ⟨2, ![1, 2]⟩
abbrev S100000x2 : Shape := ⟨2, ![100000, 2]⟩
abbrev S4000x64 : Shape := ⟨2, ![4000, 64]⟩
abbrev S4000x1 : Shape := ⟨2, ![4000, 1]⟩
abbrev S4000x2 : Shape := ⟨2, ![4000, 2]⟩
abbrev S4000x32 : Shape := ⟨2, ![4000, 32]⟩

abbrev nBuf : Space → Nat
  | .hbm => 45
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S_, .i32⟩
  | .hbm, ⟨15, _⟩ => ⟨S1200000, .i32⟩
  | .hbm, ⟨16, _⟩ => ⟨S_, .i32⟩
  | .hbm, ⟨17, _⟩ => ⟨S100000, .i32⟩
  | .hbm, ⟨18, _⟩ => ⟨S1200000x1, .i32⟩
  | .hbm, ⟨19, _⟩ => ⟨S100000, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000x64, .f32⟩
  | .hbm, ⟨36, _⟩ => ⟨S_, .f32⟩
  | .hbm, ⟨37, _⟩ => ⟨S100000x64, .f32⟩
  | .hbm, ⟨38, _⟩ => ⟨S1200000x1, .i32⟩
  | .hbm, ⟨39, _⟩ => ⟨S100000x64, .f32⟩
  | .hbm, ⟨40, _⟩ => ⟨S1x64, .f32⟩
  | .hbm, ⟨41, _⟩ => ⟨S1x32, .f32⟩
  | .hbm, ⟨42, _⟩ => ⟨S1x32, .f32⟩
  | .hbm, ⟨43, _⟩ => ⟨S1x2, .f32⟩
  | .hbm, ⟨44, _⟩ => ⟨S100000x2, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x1, .f32⟩
  | .local _ .vmem, ⟨12, _⟩ => ⟨S4000x1, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | .local _ .vmem, ⟨16, _⟩ => ⟨S64x32, .f32⟩
  | .local _ .vmem, ⟨17, _⟩ => ⟨S1x32, .f32⟩
  | .local _ .vmem, ⟨18, _⟩ => ⟨S32x32, .f32⟩
  | .local _ .vmem, ⟨19, _⟩ => ⟨S1x32, .f32⟩
  | .local _ .vmem, ⟨20, _⟩ => ⟨S32x2, .f32⟩
  | .local _ .vmem, ⟨21, _⟩ => ⟨S1x2, .f32⟩
  | .local _ .vmem, ⟨22, _⟩ => ⟨S4000x2, .f32⟩
  | .local _ .vmem, ⟨23, _⟩ => ⟨S4000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x2 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S32_S1x32 : S32.ShapeCasts S1x32
  shapeCasts_S2_S1x2 : S2.ShapeCasts S1x2
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000_S1200000x1_S1200000_n_0_0_1_wf : ScatterDims.WF S100000 S1200000x1 S1200000 [] [0] [0] 1
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S4000x64_S64x32_S4000x32_1_0_0_1_n_n_wf : DotDims.WF S4000x64 S64x32 S4000x32 [1] [0] [0] [1] [] []
  dot_S4000x32_S32x32_S4000x32_1_0_0_1_n_n_wf : DotDims.WF S4000x32 S32x32 S4000x32 [1] [0] [0] [1] [] []
  dot_S4000x32_S32x2_S4000x2_1_0_0_1_n_n_wf : DotDims.WF S4000x32 S32x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x32.size a ≤ S32x32.size a
  hwx1_7 : ∀ i : grid1.Coords, EltTy.bits .f32 = 32 ∨ (Rect.block (s := S32x32) S32x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x2.size a ≤ S32x2.size a
  hwx1_9 : ∀ i : grid1.Coords, EltTy.bits .f32 = 32 ∨ (Rect.block (s := S32x2) S32x2.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x2.size a ≤ S1x2.size a
  hwx1_10 : ∀ i : grid1.Coords, EltTy.bits .f32 = 32 ∨ (Rect.block (s := S1x2) S1x2.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x2.size a ≤ S100000x2.size a
  hwx1_11 : ∀ i : grid1.Coords, EltTy.bits .f32 = 32 ∨ (Rect.block (s := S100000x2) S4000x2.size (cc1_transform_11 i) (hinb1_11 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x2_S4000x2_1_0_0_1_n_n : DotDims S4000x32 S32x2 S4000x2 where
  lhsContracting := [1]
  rhsContracting := [0]
  lhsNonContracting := [0]
  rhsNonContracting := [1]
  lhsBatch := []
  rhsBatch := []
  wf := dot_S4000x32_S32x2_S4000x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S4000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S32x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg8) S32x2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v27) S1x2.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v28) S4000x2.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S100000x32 : Shape := ⟨2, ![100000, 32]⟩
abbrev S1x32 : Shape := ⟨2, ![1, 32]⟩
abbrev S100000x2 : Shape := ⟨2, ![100000, 2]⟩
abbrev S1x2 : Shape := ⟨2, ![1, 2]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S100000, .i32⟩
  | .hbm, ⟨11, _⟩ => ⟨S1x1200000, .i32⟩
  | .hbm, ⟨12, _⟩ => ⟨S1200000, .i32⟩
  | .hbm, ⟨13, _⟩ => ⟨S1300000, .i32⟩
  | .hbm, ⟨14, _⟩ => ⟨S1x1200000, .i32⟩
  | .hbm, ⟨15, _⟩ => ⟨S1200000, .i32⟩
  | .hbm, ⟨16, _⟩ => ⟨S1300000, .i32⟩
  | .hbm, ⟨17, _⟩ => ⟨S_, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1300000, .i32⟩
  | .hbm, ⟨26, _⟩ => ⟨S1300000, .i1⟩
  | .hbm, ⟨27, _⟩ => ⟨S_, .i32⟩
  | .hbm, ⟨28, _⟩ => ⟨S1300000, .i32⟩
  | .hbm, ⟨29, _⟩ => ⟨S1300000, .i32⟩
  | .hbm, ⟨30, _⟩ => ⟨S1300000, .i32⟩
  | .hbm, ⟨31, _⟩ => ⟨S1300000x1, .i32⟩
  | .hbm, ⟨32, _⟩ => ⟨S1300000, .f32⟩
  | .hbm, ⟨33, _⟩ => ⟨S_, .i32⟩
  | .hbm, ⟨34, _⟩ => ⟨S1300000, .i32⟩
  | .hbm, ⟨35, _⟩ => ⟨S1300000, .i1⟩
  | .hbm, ⟨36, _⟩ => ⟨S_, .i32⟩
  | .hbm, ⟨37, _⟩ => ⟨S1300000, .i32⟩
  | .hbm, ⟨38, _⟩ => ⟨S1300000, .i32⟩
  | .hbm, ⟨39, _⟩ => ⟨S1300000, .i32⟩
  | .hbm, ⟨40, _⟩ => ⟨S1300000x1, .i32⟩
  | .hbm, ⟨41, _⟩ => ⟨S1300000, .f32⟩
  | .hbm, ⟨42, _⟩ => ⟨S1300000, .f32⟩
  | .hbm, ⟨43, _⟩ => ⟨S100000x64, .f32⟩
  | .hbm, ⟨44, _⟩ => ⟨S_, .i32⟩
  | .hbm, ⟨45, _⟩ => ⟨S1300000, .i32⟩
  | .hbm, ⟨46, _⟩ => ⟨S1300000, .i1⟩
  | .hbm, ⟨47, _⟩ => ⟨S_, .i32⟩
  | .hbm, ⟨48, _⟩ => ⟨S1300000, .i32⟩
  | .hbm, ⟨49, _⟩ => ⟨S1300000, .i32⟩
  | .hbm, ⟨50, _⟩ => ⟨S1300000, .i32⟩
  | .hbm, ⟨51, _⟩ => ⟨S1300000x1, .i32⟩
  | .hbm, ⟨52, _⟩ => ⟨S1300000x64, .f32⟩
  | .hbm, ⟨53, _⟩ => ⟨S1300000x1, .f32⟩
  | .hbm, ⟨54, _⟩ => ⟨S1300000x64, .f32⟩
  | .hbm, ⟨55, _⟩ => ⟨S1300000x64, .f32⟩
  | .hbm, ⟨56, _⟩ => ⟨S_, .f32⟩
  | .hbm, ⟨57, _⟩ => ⟨S100000x64, .f32⟩
  | .hbm, ⟨58, _⟩ => ⟨S1300000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .f32⟩
  | .hbm, ⟨72, _⟩ => ⟨S100000x32, .f32⟩
  | .hbm, ⟨73, _⟩ => ⟨S100000x32, .f32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S100000x32, .f32⟩
  | .hbm, ⟨78, _⟩ => ⟨S_, .f32⟩
  | .hbm, ⟨79, _⟩ => ⟨S100000x32, .f32⟩
  | .hbm, ⟨80, _⟩ => ⟨S100000x32, .f32⟩
  | .hbm, ⟨81, _⟩ => ⟨S100000x2, .f32⟩
  | .hbm, ⟨82, _⟩ => ⟨S1x2, .f32⟩
  | .hbm, ⟨83, _⟩ => ⟨S100000x2, .f32⟩
  | .hbm, ⟨84, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_cst : Ref sig .tc := ⟨.hbm, 78, rfl⟩
abbrev main_call2_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  dot_S100000x32_S32x2_S100000x2_1_0_0_1_n_n_wf : DotDims.WF S100000x32 S32x2 S100000x2 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KRun.lean ====
/-
  The first program's run with its result named: every weakly fair execution ends, nothing faulting, with the result
  buffer at the contents the last stage's write-backs leave and the arguments as launched.
-/
import proofs.«141030_j12884901888485_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run, with the result buffer read from the same final contents as the arguments. -/
theorem run_value : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.KVal

end
-- ==== Proof.Spec.lean ====
/-
  The two programs' results as functions of the argument arrays, entry by entry, over the extended reals.

  A graph on 100000 nodes is given by 1200000 edges, each a pair of 32-bit words (source, target). A source word names
  the node it denotes after a negative word is wrapped by the number of nodes and the result is clamped into the node
  range; a target word names a node only when, read as a signed integer, it lies in the node range, and an edge whose
  target names no node contributes nothing. With `h = x · W` the node features after the linear map and `d v` the
  inverse square root of one plus the number of edges into `v`, one program forms at node `v`

      d v · ( Σ_{e into v} h(src e) · d(src e)  +  h v · d v ),

  the other adds the loop edge `v → v` to the edge list and forms

      Σ_{e into v, loops included} h(src e) · ( d(src e) · d(tgt e) ).

  Both then add the bias, clip at zero, add `x` back and apply the same three dense layers to each node's row.
-/
import Idealize.ShloMosaic.PureOps.Ideal
import Idealize.ShloMosaic.Lib.ValueIdx
import Mathlib.Data.BitVec

noncomputable section

open scoped BigOperators

namespace Cert.Gcn

open Idealize.ShloMosaic Idealize.ShloMosaic.ValueIdx

/-- The float zero word and the float one word, at the ideal values (kept as words: the same word on both sides). -/
abbrev Z : EReal := Ideal.ofBits .f32 0x00000000#32
abbrev ONE : EReal := Ideal.ofBits .f32 0x3F800000#32

/-! ## Words of the edge list -/

/-- Edge `e`'s source word. -/
def srcW (ei : IVec ⟨2, ![2, 1200000]⟩ 32) (e : Fin 1200000) : BitVec 32 := ei (ix2 (0 : Fin 2) e)
/-- Edge `e`'s target word. -/
def dstW (ei : IVec ⟨2, ![2, 1200000]⟩ 32) (e : Fin 1200000) : BitVec 32 := ei (ix2 (1 : Fin 2) e)

/-- A negative word is wrapped by the number of nodes. -/
def wrapW (w : BitVec 32) : BitVec 32 := Scalar.select (IntOp.cmpi .slt w 0#32) (w + 100000#32) w

/-- The node a gathered word names: wrapped, read signed, clamped into the node range. -/
def rowOf (w : BitVec 32) : Fin 100000 := ⟨min (wrapW w).toInt.toNat (100000 - 1), by omega⟩

/-- The edge list with the loop edges appended: entry `e` below 1200000 is the list's word, entry `1200000 + v` is `v`. -/
def catW (f : Fin 1200000 → BitVec 32) (e : Fin 1300000) : BitVec 32 :=
  if h : e.val < 1200000 then f ⟨e.val, h⟩ else BitVec.ofNat 32 (e.val - 1200000)

/-! ## The linear map and the dense layers -/

/-- `(x · W)(v, c)`. -/
def lin (x : FVec Ideal ⟨2, ![100000, 64]⟩ .f32) (Wg : FVec Ideal ⟨2, ![64, 64]⟩ .f32) (v : Fin 100000) (c : Fin 64) : EReal :=
  ∑ k : Fin 64, x (ix2 v k) * Wg (ix2 k c)

/-- The three dense layers on one node's row `g`, at output column `o`. -/
def mlp (W1 : FVec Ideal ⟨2, ![64, 32]⟩ .f32) (b1 : Fin 32 → EReal)
    (W2 : FVec Ideal ⟨2, ![32, 32]⟩ .f32) (b2 : Fin 32 → EReal)
    (W3 : FVec Ideal ⟨2, ![32, 2]⟩ .f32) (b3 : Fin 2 → EReal) (g : Fin 64 → EReal) (o : Fin 2) : EReal :=
  (∑ k2 : Fin 32,
      max ((∑ k1 : Fin 32,
          max ((∑ k0 : Fin 64, g k0 * W1 (ix2 k0 k1)) + b1 k1) Z * W2 (ix2 k1 k2)) + b2 k2) Z
        * W3 (ix2 k2 o))
    + b3 o

/-! ## The two dense stages of the first program, as whole arrays of the arrays they are handed -/

/-- The first stage: the linear map with every row scaled by the row's entry of a column. -/
def hsArr (x : FVec Ideal ⟨2, ![100000, 64]⟩ .f32) (Wg : FVec Ideal ⟨2, ![64, 64]⟩ .f32)
    (dcol : FVec Ideal ⟨2, ![100000, 1]⟩ .f32) : FVec Ideal ⟨2, ![100000, 64]⟩ .f32 :=
  fun i => (∑ k : Fin 64, x (ix2 (i 0) k) * Wg (ix2 k (i 1))) * dcol (ix2 (i 0) (0 : Fin 1))

/-- The second stage: the row scaling of the summed messages plus the node's own scaled row, the bias, the clip at
    zero, `x` added back, and the three dense layers; the biases arrive as one-row arrays. -/
def outArr (agg hs : FVec Ideal ⟨2, ![100000, 64]⟩ .f32) (dcol : FVec Ideal ⟨2, ![100000, 1]⟩ .f32)
    (bgr : FVec Ideal ⟨2, ![1, 64]⟩ .f32) (x : FVec Ideal ⟨2, ![100000, 64]⟩ .f32)
    (W1 : FVec Ideal ⟨2, ![64, 32]⟩ .f32) (b1r : FVec Ideal ⟨2, ![1, 32]⟩ .f32)
    (W2 : FVec Ideal ⟨2, ![32, 32]⟩ .f32) (b2r : FVec Ideal ⟨2, ![1, 32]⟩ .f32)
    (W3 : FVec Ideal ⟨2, ![32, 2]⟩ .f32) (b3r : FVec Ideal ⟨2, ![1, 2]⟩ .f32) : FVec Ideal ⟨2, ![100000, 2]⟩ .f32 :=
  fun i => mlp W1 (fun k => b1r (ix2 (0 : Fin 1) k)) W2 (fun k => b2r (ix2 (0 : Fin 1) k)) W3 (fun k => b3r (ix2 (0 : Fin 1) k))
    (fun c => max (dcol (ix2 (i 0) (0 : Fin 1)) * (agg (ix2 (i 0) c) + hs (ix2 (i 0) c)) + bgr (ix2 (0 : Fin 1) c)) Z
      + x (ix2 (i 0) c)) (i 1)

/-! ## The first program: the norm factored into two row scalings, the loop edge added densely -/

/-- The number of edges into `v`, counted in 32-bit words. -/
def cntW (ei : IVec ⟨2, ![2, 1200000]⟩ 32) (v : Fin 100000) : BitVec 32 :=
  0#32 + ∑ e : Fin 1200000, if (dstW ei e).toInt = (v.val : Int) then 1#32 else 0

/-- `d v`: the inverse square root of the count, read signed, plus one. -/
def dK (ei : IVec ⟨2, ![2, 1200000]⟩ 32) (v : Fin 100000) : EReal :=
  Ideal.rsqrt ((((cntW ei v).toInt : ℝ) : EReal) + ONE)

/-- `h v · d v`. -/
def hsK (x : FVec Ideal ⟨2, ![100000, 64]⟩ .f32) (Wg : FVec Ideal ⟨2, ![64, 64]⟩ .f32) (ei : IVec ⟨2, ![2, 1200000]⟩ 32)
    (v : Fin 100000) (c : Fin 64) : EReal :=
  lin x Wg v c * dK ei v

/-- The scaled rows summed over the edges into `v`. -/
def rawK (x : FVec Ideal ⟨2, ![100000, 64]⟩ .f32) (Wg : FVec Ideal ⟨2, ![64, 64]⟩ .f32) (ei : IVec ⟨2, ![2, 1200000]⟩ 32)
    (v : Fin 100000) (c : Fin 64) : EReal :=
  Z + ∑ e : Fin 1200000, if (dstW ei e).toInt = (v.val : Int) then hsK x Wg ei (rowOf (srcW ei e)) c else 0

/-- Node `v`'s row going into the dense layers. -/
def featK (x : FVec Ideal ⟨2, ![100000, 64]⟩ .f32) (Wg : FVec Ideal ⟨2, ![64, 64]⟩ .f32) (bg : FVec Ideal ⟨1, ![64]⟩ .f32)
    (ei : IVec ⟨2, ![2, 1200000]⟩ 32) (v : Fin 100000) (c : Fin 64) : EReal :=
  max (dK ei v * (rawK x Wg ei v c + hsK x Wg ei v c) + bg (ix1 c)) Z + x (ix2 v c)

/-- The first program's result at `(v, o)`. -/
def outK (x : FVec Ideal ⟨2, ![100000, 64]⟩ .f32) (ei : IVec ⟨2, ![2, 1200000]⟩ 32) (Wg : FVec Ideal ⟨2, ![64, 64]⟩ .f32)
    (bg : FVec Ideal ⟨1, ![64]⟩ .f32) (W1 : FVec Ideal ⟨2, ![64, 32]⟩ .f32) (b1 : FVec Ideal ⟨1, ![32]⟩ .f32)
    (W2 : FVec Ideal ⟨2, ![32, 32]⟩ .f32) (b2 : FVec Ideal ⟨1, ![32]⟩ .f32)
    (W3 : FVec Ideal ⟨2, ![32, 2]⟩ .f32) (b3 : FVec Ideal ⟨1, ![2]⟩ .f32) : FVec Ideal ⟨2, ![100000, 2]⟩ .f32 :=
  fun i => mlp W1 (fun k => b1 (ix1 k)) W2 (fun k => b2 (ix1 k)) W3 (fun k => b3 (ix1 k)) (featK x Wg bg ei (i 0)) (i 1)

/-! ## The second program: the loop edges appended to the list, the norm per edge -/

/-- The degree: the float sum of a one for every listed edge into `v`, loops included. -/
def degR (ei : IVec ⟨2, ![2, 1200000]⟩ 32) (v : Fin 100000) : EReal :=
  Z + ∑ e : Fin 1300000, if (catW (dstW ei) e).toInt = (v.val : Int) then ONE else 0

def dR (ei : IVec ⟨2, ![2, 1200000]⟩ 32) (v : Fin 100000) : EReal := Ideal.rsqrt (degR ei v)

/-- The norm of listed edge `e`: `d` at its source node times `d` at the node its target word names when gathered. -/
def normR (ei : IVec ⟨2, ![2, 1200000]⟩ 32) (e : Fin 1300000) : EReal :=
  dR ei (rowOf (catW (srcW ei) e)) * dR ei (rowOf (catW (dstW ei) e))

/-- The messages summed over the listed edges into `v`. -/
def aggR (x : FVec Ideal ⟨2, ![100000, 64]⟩ .f32) (Wg : FVec Ideal ⟨2, ![64, 64]⟩ .f32) (ei : IVec ⟨2, ![2, 1200000]⟩ 32)
    (v : Fin 100000) (c : Fin 64) : EReal :=
  Z + ∑ e : Fin 1300000,
    if (catW (dstW ei) e).toInt = (v.val : Int) then lin x Wg (rowOf (catW (srcW ei) e)) c * normR ei e else 0

def featR (x : FVec Ideal ⟨2, ![100000, 64]⟩ .f32) (Wg : FVec Ideal ⟨2, ![64, 64]⟩ .f32) (bg : FVec Ideal ⟨1, ![64]⟩ .f32)
    (ei : IVec ⟨2, ![2, 1200000]⟩ 32) (v : Fin 100000) (c : Fin 64) : EReal :=
  max (aggR x Wg ei v c + bg (ix1 c)) Z + x (ix2 v c)

/-- The second program's result at `(v, o)`. -/
def outR (x : FVec Ideal ⟨2, ![100000, 64]⟩ .f32) (ei : IVec ⟨2, ![2, 1200000]⟩ 32) (Wg : FVec Ideal ⟨2, ![64, 64]⟩ .f32)
    (bg : FVec Ideal ⟨1, ![64]⟩ .f32) (W1 : FVec Ideal ⟨2, ![64, 32]⟩ .f32) (b1 : FVec Ideal ⟨1, ![32]⟩ .f32)
    (W2 : FVec Ideal ⟨2, ![32, 32]⟩ .f32) (b2 : FVec Ideal ⟨1, ![32]⟩ .f32)
    (W3 : FVec Ideal ⟨2, ![32, 2]⟩ .f32) (b3 : FVec Ideal ⟨1, ![2]⟩ .f32) : FVec Ideal ⟨2, ![100000, 2]⟩ .f32 :=
  fun i => mlp W1 (fun k => b1 (ix1 k)) W2 (fun k => b2 (ix1 k)) W3 (fun k => b3 (ix1 k)) (featR x Wg bg ei (i 0)) (i 1)

end Cert.Gcn

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.KReg0Pay.lean ====
/-
  The first dense stage's body at an index, over the extended reals.

  The body loads a block of 10000 rows of the node features, the whole 64 × 64 weight matrix and the matching 10000
  entries of the scaling column, multiplies the two matrices into the zero accumulator (the changes of float format on
  the way in are the identity on extended reals), spreads the column along the 64 output columns and multiplies entry by
  entry. So at row p and column q of the block the body's value is

      ( Σ k < 64, x(p, k) · W(k, q) ) · d(p, 0).

  If the block's row p is row r of the whole arrays (the features' and the column's alike) and the weight block is the
  whole weight matrix, this is the scaled linear map of the whole arrays at (r, q).
-/
import proofs.«141030_j12884901888485_2_alg».proof.Proof.Gen.KernelIdeal.Skeleton
import proofs.«141030_j12884901888485_2_alg».proof.Proof.Spec
import proofs.«141030_j12884901888485_2_alg».proof.Proof.LibPlainDot
import proofs.«141030_j12884901888485_2_alg».proof.Proof.LibKeepDims
import Idealize.ShloMosaic.Lib.Pipeline.Value
import Idealize.ShloMosaic.Lib.ValueIdx

noncomputable section

open scoped BigOperators

namespace Cert.KernelIdeal.KVal

open Idealize.ShloMosaic Idealize.ShloMosaic.ValueIdx Cert.KernelIdeal Cert.KernelIdeal.Gen

/-- The body's stored value at row `p`, column `q` of the block. -/
theorem pay1_apply (x0 : Vec Ideal S10000x64 .f32) (x1 : Vec Ideal S64x64 .f32) (x2 : Vec Ideal S10000x1 .f32)
    (p : Fin 10000) (q : Fin 64) :
    k0_pay1 x0 x1 x2 (ix2 p q) = (∑ k : Fin 64, x0 (ix2 p k) * x1 (ix2 k q)) * x2 (ix2 p (0 : Fin 1)) := by
  unfold k0_pay1
  refine (mulf_apply _ _ _).trans ?_
  refine congrArg₂ (· * ·) ?_ ?_
  · -- the product into the zero accumulator is the sum over the shared axis; the format changes are the identity
    refine (Ideal.matmul_constant_zero_apply dot_S10000x64_S64x64_S10000x64_1_0_0_1_n_n none
      (truncf .bf16 x0 bitsLt_bf16_f32 : FVec Ideal S10000x64 .bf16)
      (truncf .bf16 x1 bitsLt_bf16_f32 : FVec Ideal S64x64 .bf16) (ix2 p q)).trans ?_
    exact Cert.LibPlainDot.sum_contr (n := 10000) (a := 64) (b := 64) x0 x1 p q
  · -- the column, viewed in its own shape, is spread along the output columns
    rw [shapeCast_self]
    exact Cert.Lib.KeepDims.broadcastTo_a1_ab_apply x2 broadcasts_S10000x1_S10000x64 p q

/-- The same at any index `y` of the block, by its two coordinates. -/
theorem pay1_at (x0 : Vec Ideal S10000x64 .f32) (x1 : Vec Ideal S64x64 .f32) (x2 : Vec Ideal S10000x1 .f32)
    (y : S10000x64.Idx) :
    k0_pay1 x0 x1 x2 y = (∑ k : Fin 64, x0 (ix2 (y 0) k) * x1 (ix2 k (y 1))) * x2 (ix2 (y 0) (0 : Fin 1)) := by
  obtain ⟨p, q, rfl⟩ : ∃ (p : Fin 10000) (q : Fin 64), y = ix2 p q := ⟨y 0, y 1, eq_ix2 y⟩
  exact pay1_apply x0 x1 x2 p q

/-- The body's value at block index `y` is the scaled linear map of whole arrays `X`, `W`, `D` at array index `i`,
    as soon as the blocks' entries the body reads there are the arrays' entries the map reads at `i`. -/
theorem pay1_eq_hsArr (X : FVec Ideal ⟨2, ![100000, 64]⟩ .f32) (W : FVec Ideal ⟨2, ![64, 64]⟩ .f32)
    (D : FVec Ideal ⟨2, ![100000, 1]⟩ .f32)
    (x0 : Vec Ideal S10000x64 .f32) (x1 : Vec Ideal S64x64 .f32) (x2 : Vec Ideal S10000x1 .f32)
    (y : S10000x64.Idx) (i : S100000x64.Idx)
    (h0 : ∀ k : Fin 64, x0 (ix2 (y 0) k) = X (ix2 (i 0) k))
    (h1 : ∀ k : Fin 64, x1 (ix2 k (y 1)) = W (ix2 k (i 1)))
    (h2 : x2 (ix2 (y 0) (0 : Fin 1)) = D (ix2 (i 0) (0 : Fin 1))) :
    k0_pay1 x0 x1 x2 y = Cert.Gcn.hsArr X W D i := by
  refine (pay1_at x0 x1 x2 y).trans ?_
  unfold Cert.Gcn.hsArr
  refine congrArg₂ (· * ·) (Finset.sum_congr rfl fun k _ => ?_) h2
  rw [h0 k, h1 k]

end Cert.KernelIdeal.KVal

end
-- ==== Proof.KReg0Blocks.lean ====
/-
  From the ten row blocks to the whole array.

  The first dense stage runs over ten grid points; point t handles rows 10000·t … 10000·t + 9999. Its input blocks
  are those rows of the node features (all 64 columns), the whole weight matrix, and those rows of the scaling column;
  its output block is those rows of the result. A block's element at (p, q) therefore sits in its array at row
  10000·t + p and column q. With the body's value at an index, what point t writes back is exactly rows
  10000·t … 10000·t + 9999 of the scaled linear map, and the ten blocks cover every row (row r lies in block r / 10000),
  so after the stage the result array is the scaled linear map.
-/
import proofs.«141030_j12884901888485_2_alg».proof.Proof.Gen.KernelIdeal.Frame
import proofs.«141030_j12884901888485_2_alg».proof.Proof.Spec
import proofs.«141030_j12884901888485_2_alg».proof.Proof.KReg0Pay
import Idealize.ShloMosaic.Lib.Pipeline.Value

noncomputable section

open scoped BigOperators

namespace Cert.KernelIdeal.KVal

open Idealize.ShloMosaic Idealize.ShloMosaic.TcCoe Idealize.ShloMosaic.ValueIdx Idealize.SL.Sem Cert.KernelIdeal Cert.KernelIdeal.Gen
open Idealize.ShloMosaic.Pipeline (Dat)

/-- The zero offsets of the body's whole-block accesses. -/
theorem hz00 : (![0, 0] : Fin 2 → Nat) = fun _ => 0 := funext fun a => by fin_cases a <;> rfl

/-- The printed index maps over the ten points: the feature rows, the column rows and the result rows all move with
    the point, on the row axis only; the weight matrix is one block. -/
theorem idx_reg0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-! ## Each input block read where it sits in its array -/

/-- The feature block at point `t`: its entry (p, k) is the features' entry (10000·t + p, k). -/
theorem blk0_read (c : Dev nD) (t : Fin cfg0.N) (y : S10000x64.Idx) (i : S100000x64.Idx)
    (h0 : (i 0).val = 10000 * t.val + (y 0).val) (h1 : (i 1).val = (y 1).val) :
    (iblk0 V c 0 t : Vec Ideal S10000x64 .f32) y = (V c main_arg0 : S100000x64.Idx → EReal) i := by
  obtain ⟨e0, e1, -⟩ := idx_reg0 t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * (y 0).val = (i 0).val; rw [e0, h0]; omega
  | ⟨1, _⟩ => show win0_0.index t (1 : Fin 2) * 64 + 1 * (y 1).val = (i 1).val; rw [e1, h1]; omega

/-- The weight block at any point is the whole weight matrix. -/
theorem blk1_read (c : Dev nD) (t : Fin cfg0.N) (y : S64x64.Idx) (i : S64x64.Idx)
    (h0 : (i 0).val = (y 0).val) (h1 : (i 1).val = (y 1).val) :
    (iblk0 V c 1 t : Vec Ideal S64x64 .f32) y = (V c main_arg2 : S64x64.Idx → EReal) i := by
  obtain ⟨-, -, e0, e1, -⟩ := idx_reg0 t
  unfold iblk0
  rw [View.read_apply]
  show V c main_arg2 _ = V c main_arg2 _
  refine congrArg (V c main_arg2) ?_
  funext a
  apply Fin.ext
  match a with
  | ⟨0, _⟩ => show win0_1.index t (0 : Fin 2) * 64 + 1 * (y 0).val = (i 0).val; rw [e0, h0]; omega
  | ⟨1, _⟩ => show win0_1.index t (1 : Fin 2) * 64 + 1 * (y 1).val = (i 1).val; rw [e1, h1]; omega

/-- The column block at point `t`: its entry (p, 0) is the column's entry (10000·t + p, 0). -/
theorem blk2_read (c : Dev nD) (t : Fin cfg0.N) (y : S10000x1.Idx) (i : S100000x1.Idx)
    (h0 : (i 0).val = 10000 * t.val + (y 0).val) (h1 : (i 1).val = (y 1).val) :
    (iblk0 V c 2 t : Vec Ideal S10000x1 .f32) y = (V c main_v12 : S100000x1.Idx → EReal) i := by
  obtain ⟨-, -, -, -, e0, e1, -⟩ := idx_reg0 t
  unfold iblk0
  rw [View.read_apply]
  show V c main_v12 _ = V c main_v12 _
  refine congrArg (V c main_v12) ?_
  funext a
  apply Fin.ext
  match a with
  | ⟨0, _⟩ => show win0_2.index t (0 : Fin 2) * 10000 + 1 * (y 0).val = (i 0).val; rw [e0, h0]; omega
  | ⟨1, _⟩ => show win0_2.index t (1 : Fin 2) * 1 + 1 * (y 1).val = (i 1).val; rw [e1, h1]; omega

/-! ## What a point writes back -/

/-- What point `t` writes back is block `t` of the scaled linear map of the arrays the stage finds. -/
theorem flushed3_eq (c : Dev nD) (t : Fin cfg0.N) :
    (dat0 (F := Ideal) V c).flushed 3 t
      = ((cfg0.win 3).blk t).view.read (Elt Ideal) (Cert.Gcn.hsArr (V c main_arg0) (V c main_arg2) (V c main_v12)) := by
  show (cfg0.win 3).cut (grid0.coords t) ((dat0 (F := Ideal) V c).after 3 t) = _
  rw [after0_3]
  unfold out0_3
  rw [View.canon_unit_zero hz00]
  simp only [View.ld_unit_zero (S := S10000x64) hz00, View.ld_unit_zero (S := S64x64) hz00, View.ld_unit_zero (S := S10000x1) hz00]
  obtain ⟨-, -, -, -, -, -, e30, e31⟩ := idx_reg0 t
  funext j
  show k0_pay1 (iblk0 V c 0 t) (iblk0 V c 1 t) (iblk0 V c 2 t) ((cfg0.win 3).xinj (grid0.coords t) j)
      = Cert.Gcn.hsArr (V c main_arg0) (V c main_arg2) (V c main_v12) (((cfg0.win 3).blk t).view.emb j)
  -- the output block's element j sits at row 10000·t + (its row), at its own column
  have r0 : ((((cfg0.win 3).blk t).view.emb j) 0).val = 10000 * t.val + (j 0).val := by
    show win0_3.index t (0 : Fin 2) * 10000 + 1 * (j 0).val = _; rw [e30]; omega
  have r1 : ((((cfg0.win 3).blk t).view.emb j) 1).val = (j 1).val := by
    show win0_3.index t (1 : Fin 2) * 64 + 1 * (j 1).val = _; rw [e31]; omega
  refine pay1_eq_hsArr (V c main_arg0) (V c main_arg2) (V c main_v12) (iblk0 V c 0 t) (iblk0 V c 1 t) (iblk0 V c 2 t)
    ((cfg0.win 3).xinj (grid0.coords t) j) (((cfg0.win 3).blk t).view.emb j) (fun k => ?_) (fun k => ?_) ?_
  · exact blk0_read V c t _ _ r0 rfl
  · exact blk1_read V c t _ _ rfl r1
  · exact blk2_read V c t _ _ r0 rfl

/-! ## The ten blocks cover the array -/

/-- An index of the result array is in point `t`'s block iff each coordinate is in the block's range on its axis. -/
theorem mem_blk3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v13).slice (win0_3.rect t)).set ↔ _
  rw [View.set_slice_whole, Rect.mem_set_unit]
  exact Iff.rfl

/-- Row r of the result lies in the block of point r / 10000, which is written back. -/
theorem cover3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, -, -, e30, e31⟩ := idx_reg0 ⟨(i 0).val / 10000, ht⟩
  refine ⟨⟨(i 0).val / 10000, ht⟩, flush0_3 _, ?_⟩
  rw [mem_blk3]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    rw [e31]
    omega

/-! ## The array after the stage -/

/-- After the ten points the result array is the scaled linear map of the arrays the stage found on entry. -/
theorem arr3_final (c : Dev nD) :
    (dat0 (F := Ideal) V c).arrAt 3 cfg0.N = Cert.Gcn.hsArr (V c main_arg0) (V c main_arg2) (V c main_v12) :=
  (dat0 (F := Ideal) V c).arrAt_eq_of_cover 3 (Cert.Gcn.hsArr (V c main_arg0) (V c main_arg2) (V c main_v12))
    (fun t _ => flushed3_eq V c t) cover3

end Cert.KernelIdeal.KVal

end
-- ==== Proof.KReg0.lean ====
/-
  The first dense stage as one array: after the stage has run over its ten row blocks, its result array is the linear
  map of the node features with every row scaled by that row's entry of the scaling column.
-/
import proofs.«141030_j12884901888485_2_alg».proof.Proof.Gen.KernelIdeal.Frame
import proofs.«141030_j12884901888485_2_alg».proof.Proof.Spec
import proofs.«141030_j12884901888485_2_alg».proof.Proof.KReg0Blocks

noncomputable section

namespace Cert.KernelIdeal.KVal

open Idealize.ShloMosaic Idealize.ShloMosaic.TcCoe Idealize.SL.Sem Cert.KernelIdeal Cert.KernelIdeal.Gen

/-- The first stage's result array, from the arrays the stage finds on entry. -/
theorem reg0_final (V : (c : Dev nD) → (b : Ref sig .tc) → Buf (Elt Ideal) ((c : Thread nD τ).loc b)) (c : Dev nD) :
    ((dat0 (F := Ideal) V c).arrAt 3 cfg0.N : S100000x64.Idx → EReal)
      = Cert.Gcn.hsArr (V c main_arg0) (V c main_arg2) (V c main_v12) :=
  arr3_final V c

end Cert.KernelIdeal.KVal

end
-- ==== Proof.KReg1Layers.lean ====
/-
  The layers of the second dense stage read at an entry, at the ideal values, for any extents.

  The stage works on a block of n rows. It first forms, at row p and column c,

      max (d(p) · (s(p, c) + h(p, c)) + β(c)) 0 + x(p, c)

  from a column d spread along the rows, two blocks s and h, a one-row bias β spread down the rows, a clip at zero and
  the block x added back; and then applies dense layers, each of which is a matrix product into the zero accumulator
  followed by a one-row bias spread down the rows,

      (∑ k, X(p, k) · W(k, o)) + β(o).

  At the ideal values a change of float format is the identity, so the operands of the product are the layer's input
  and weight themselves.
-/
import Idealize.ShloMosaic.Lib.ValueLayout
import proofs.«141030_j12884901888485_2_alg».proof.Proof.LibPlainDot
import proofs.«141030_j12884901888485_2_alg».proof.Proof.LibKeepDims
import proofs.«141030_j12884901888485_2_alg».proof.Proof.Spec

noncomputable section

open scoped BigOperators

namespace Cert.KernelIdeal.KVal.Layers

open Idealize.ShloMosaic Idealize.ShloMosaic.ValueIdx

variable {n a b : ℕ}

/-- A product with the plain dimension numbers into the zero accumulator at entry (p, o), whatever the operands'
    float formats. -/
theorem product_apply {φ₁ φ₂ : FTy} (L : FVec Ideal ⟨2, ![n, a]⟩ φ₁) (R : FVec Ideal ⟨2, ![a, b]⟩ φ₂) (p : Fin n) (o : Fin b) :
    matmul (DotDims.plain n a b) none L R (constant ⟨2, ![n, b]⟩ .f32 0x00000000#32) (ix2 p o)
      = ∑ k : Fin a, L (ix2 p k) * R (ix2 k o) :=
  (Ideal.matmul_constant_zero_apply (DotDims.plain n a b) none L R (ix2 p o)).trans (Cert.LibPlainDot.sum_contr L R p o)

/-- A dense layer at entry (p, o): the product of the input's row p with the weight's column o, plus the bias at o. -/
theorem dense_apply (X : FVec Ideal ⟨2, ![n, a]⟩ .f32) (W : FVec Ideal ⟨2, ![a, b]⟩ .f32) (β : FVec Ideal ⟨2, ![1, b]⟩ .f32)
    (hx : FTy.bits .bf16 < FTy.bits .f32) (hc : (⟨2, ![1, b]⟩ : Shape).ShapeCasts ⟨2, ![1, b]⟩)
    (hb : (⟨2, ![1, b]⟩ : Shape).Broadcasts ⟨2, ![n, b]⟩) (p : Fin n) (o : Fin b) :
    addf (matmul (DotDims.plain n a b) none (truncf .bf16 X hx) (truncf .bf16 W hx) (constant ⟨2, ![n, b]⟩ .f32 0x00000000#32))
        (broadcastTo ⟨2, ![n, b]⟩ (shapeCast ⟨2, ![1, b]⟩ β hc) hb) (ix2 p o)
      = (∑ k : Fin a, X (ix2 p k) * W (ix2 k o)) + β (ix2 (0 : Fin 1) o) := by
  rw [addf_apply, product_apply, broadcastTo_1b_ab_apply, shapeCast_self]
  rfl

/-- The stage's first step at entry (p, c). -/
theorem feat_apply (d : FVec Ideal ⟨2, ![n, 1]⟩ .f32) (s h : FVec Ideal ⟨2, ![n, a]⟩ .f32) (β : FVec Ideal ⟨2, ![1, a]⟩ .f32)
    (x : FVec Ideal ⟨2, ![n, a]⟩ .f32)
    (hd : (⟨2, ![n, 1]⟩ : Shape).ShapeCasts ⟨2, ![n, 1]⟩) (hs : (⟨2, ![n, a]⟩ : Shape).ShapeCasts ⟨2, ![n, a]⟩)
    (hh : (⟨2, ![n, a]⟩ : Shape).ShapeCasts ⟨2, ![n, a]⟩) (hbd : (⟨2, ![n, 1]⟩ : Shape).Broadcasts ⟨2, ![n, a]⟩)
    (hβ : (⟨2, ![1, a]⟩ : Shape).ShapeCasts ⟨2, ![1, a]⟩) (hbβ : (⟨2, ![1, a]⟩ : Shape).Broadcasts ⟨2, ![n, a]⟩)
    (p : Fin n) (c : Fin a) :
    addf (maximumf (addf (mulf (broadcastTo ⟨2, ![n, a]⟩ (shapeCast ⟨2, ![n, 1]⟩ d hd) hbd)
              (addf (shapeCast ⟨2, ![n, a]⟩ s hs) (shapeCast ⟨2, ![n, a]⟩ h hh)))
            (broadcastTo ⟨2, ![n, a]⟩ (shapeCast ⟨2, ![1, a]⟩ β hβ) hbβ))
          (broadcast ⟨2, ![n, a]⟩ (Scalar.ofBits (F := Ideal) .f32 0x00000000#32))) x (ix2 p c)
      = max (d (ix2 p (0 : Fin 1)) * (s (ix2 p c) + h (ix2 p c)) + β (ix2 (0 : Fin 1) c)) Cert.Gcn.Z + x (ix2 p c) := by
  rw [addf_apply, maximumf_apply, addf_apply, mulf_apply, addf_apply, Cert.Lib.KeepDims.broadcastTo_a1_ab_apply,
    broadcastTo_1b_ab_apply, shapeCast_self, shapeCast_self, shapeCast_self, shapeCast_self, broadcast_apply]
  rfl

end Cert.KernelIdeal.KVal.Layers

end
-- ==== Proof.KReg1Pay.lean ====
/-
  The second dense stage's stored block at an entry, at the ideal values.

  On a block of 4000 rows the stage loads the two summand blocks, the scaling column, the one-row bias, the block of
  node features, and the three dense layers' weights and one-row biases, and stores one block of 4000 × 2 results.
  Entry (p, o) of the stored block is the three dense layers applied to row p of the first step's result,

      g(c) = max (d(p) · (s(p, c) + h(p, c)) + β(c)) 0 + x(p, c),

  read at output column o. The stage's arithmetic is two printed pieces (the first two layers, then the last one, with
  the clip between them taken against a block of zeros); each is read at an entry by the layer lemmas.
-/
import proofs.«141030_j12884901888485_2_alg».proof.Proof.Gen.KernelIdeal.Skeleton
import proofs.«141030_j12884901888485_2_alg».proof.Proof.KReg1Layers

noncomputable section

open scoped BigOperators

namespace Cert.KernelIdeal.KVal.Pay

open Idealize.ShloMosaic Idealize.ShloMosaic.ValueIdx Cert.KernelIdeal Cert.KernelIdeal.Gen
open Cert.KernelIdeal.KVal.Layers

/-- The block of zeros the last clip is taken against, at any entry. -/
theorem zeros_apply (p : Fin 4000) (k : Fin 32) : k1_pay3 (F := Ideal) (ix2 p k) = Cert.Gcn.Z := rfl

/-- The first printed piece at entry (p, k2): the first step, then two dense layers with the clip between them. -/
theorem first_apply (v0 : Vec Ideal S4000x1 .f32) (v2 v4 : Vec Ideal S4000x64 .f32) (v9 : Vec Ideal S1x64 .f32)
    (v15 : Vec Ideal S4000x64 .f32) (v18 : Vec Ideal S64x32 .f32) (v21 : Vec Ideal S1x32 .f32)
    (v28 : Vec Ideal S32x32 .f32) (v31 : Vec Ideal S1x32 .f32) (p : Fin 4000) (k2 : Fin 32) :
    k1_pay2 v0 v2 v4 v9 v15 v18 v21 v28 v31 (ix2 p k2)
      = (∑ k1 : Fin 32,
          max ((∑ k0 : Fin 64,
              (max (v0 (ix2 p (0 : Fin 1)) * (v2 (ix2 p k0) + v4 (ix2 p k0)) + v9 (ix2 (0 : Fin 1) k0)) Cert.Gcn.Z
                + v15 (ix2 p k0)) * v18 (ix2 k0 k1)) + v21 (ix2 (0 : Fin 1) k1)) Cert.Gcn.Z * v28 (ix2 k1 k2))
        + v31 (ix2 (0 : Fin 1) k2) := by
  unfold k1_pay2
  refine (dense_apply (n := 4000) (a := 32) (b := 32) _ v28 v31 _ _ _ p k2).trans ?_
  refine congrArg (· + v31 (ix2 (0 : Fin 1) k2)) (Finset.sum_congr rfl fun k1 _ => ?_)
  refine congrArg (· * v28 (ix2 k1 k2)) ?_
  refine (maximumf_apply _ _ (ix2 p k1)).trans ?_
  refine congrArg (max · Cert.Gcn.Z) ?_
  refine (dense_apply (n := 4000) (a := 64) (b := 32) _ v18 v21 _ _ _ p k1).trans ?_
  refine congrArg (· + v21 (ix2 (0 : Fin 1) k1)) (Finset.sum_congr rfl fun k0 _ => ?_)
  refine congrArg (· * v18 (ix2 k0 k1)) ?_
  exact feat_apply (n := 4000) (a := 64) v0 v2 v4 v9 v15 _ _ _ _ _ _ p k0

/-- The stored block at entry (p, o): the three dense layers on row p of the first step's result. -/
theorem stored_apply (x0 x1 : Vec Ideal S4000x64 .f32) (x2 : Vec Ideal S4000x1 .f32) (x3 : Vec Ideal S1x64 .f32)
    (x4 : Vec Ideal S4000x64 .f32) (x5 : Vec Ideal S64x32 .f32) (x6 : Vec Ideal S1x32 .f32) (x7 : Vec Ideal S32x32 .f32)
    (x8 : Vec Ideal S1x32 .f32) (x9 : Vec Ideal S32x2 .f32) (x10 : Vec Ideal S1x2 .f32) (p : Fin 4000) (o : Fin 2) :
    k1_pay1 (k1_pay2 x2 x0 x1 x3 x4 x5 x6 x7 x8) (k1_pay3 (F := Ideal)) x9 x10 (ix2 p o)
      = Cert.Gcn.mlp x5 (fun k => x6 (ix2 (0 : Fin 1) k)) x7 (fun k => x8 (ix2 (0 : Fin 1) k)) x9
          (fun k => x10 (ix2 (0 : Fin 1) k))
          (fun c => max (x2 (ix2 p (0 : Fin 1)) * (x0 (ix2 p c) + x1 (ix2 p c)) + x3 (ix2 (0 : Fin 1) c)) Cert.Gcn.Z
            + x4 (ix2 p c)) o := by
  unfold k1_pay1 Cert.Gcn.mlp
  refine (dense_apply (n := 4000) (a := 32) (b := 2) _ x9 x10 _ _ _ p o).trans ?_
  refine congrArg (· + x10 (ix2 (0 : Fin 1) o)) (Finset.sum_congr rfl fun k2 _ => ?_)
  refine congrArg (· * x9 (ix2 k2 o)) ?_
  refine (maximumf_apply _ _ (ix2 p k2)).trans ?_
  rw [zeros_apply p k2, first_apply]

end Cert.KernelIdeal.KVal.Pay

end
-- ==== Proof.KReg1.lean ====
/-
  The second dense stage as one array: after the stage has run over its twenty-five row blocks, its result array is,
  row by row, the three dense layers applied to the clipped, bias-shifted, rescaled sum of the two incoming rows plus
  the node's own features.

  The stage's grid has 25 points; point t handles rows 4000·t … 4000·t + 3999. The two summand arrays, the scaling
  column, the node features and the result move in blocks of 4000 rows, block t at point t; the biases and the weights
  are handed over whole at every point. So row p of a row-blocked operand's block at point t is row 4000·t + p of its
  array, and the block the stage stores at point t is rows 4000·t … 4000·t + 3999 of the array-level function. Every
  row r lies in the block of point r / 4000, so the blocks written back fill the result array.
-/
import proofs.«141030_j12884901888485_2_alg».proof.Proof.Gen.KernelIdeal.Frame
import proofs.«141030_j12884901888485_2_alg».proof.Proof.Spec
import proofs.«141030_j12884901888485_2_alg».proof.Proof.KReg1Pay
import Idealize.ShloMosaic.Lib.Pipeline.Value

noncomputable section

namespace Cert.KernelIdeal.KVal

open Idealize.ShloMosaic Idealize.ShloMosaic.TcCoe Idealize.SL.Sem Cert.KernelIdeal Cert.KernelIdeal.Gen
open Idealize.ShloMosaic.ValueIdx

namespace Reg1

/-- The zero offsets of a whole-buffer access. -/
theorem zero_off : (![0, 0] : Fin 2 → Nat) = fun _ => 0 := funext fun a => by fin_cases a <;> rfl

/-- The printed index maps, decided once over the grid: a row-blocked window's block index at point t is (t, 0), a
    window handed over whole has block index (0, 0). -/
theorem idx_facts : ∀ t : Fin cfg1.N,
      (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

variable (V : (c : Dev nD) → (b : Ref sig .tc) → Buf (Elt Ideal) ((c : Thread nD τ).loc b))

/-! ## The operand blocks, read off their arrays

A block's element sits in its array, on each axis, at the block index times the block's extent plus its own
coordinate. -/

/-- Row p of the first summand's block at point t is row 4000·t + p of its array. -/
theorem blk0_apply (c : Dev nD) (t : Fin cfg1.N) (p : Fin 4000) (q : Fin 64) (r : Fin 100000)
    (hr : r.val = t.val * 4000 + p.val) :
    (iblk1 (F := Ideal) V c 0 t : Vec Ideal S4000x64 .f32) (ix2 p q) = (V c main_v23 : S100000x64.Idx → EReal) (ix2 r q) := by
  unfold iblk1
  rw [View.read_apply]
  show V c main_v23 (((cfg1.win 0).blk t).view.emb (ix2 p q)) = V c main_v23 (ix2 r q)
  refine congrArg (V c main_v23) (funext fun a => Fin.ext ?_)
  obtain ⟨⟨e0, e1⟩, -⟩ := idx_facts t
  match a with
  | ⟨0, _⟩ => show win1_0.index t (0 : Fin 2) * 4000 + 1 * p.val = r.val; rw [e0, hr]; omega
  | ⟨1, _⟩ => show win1_0.index t (1 : Fin 2) * 64 + 1 * q.val = q.val; rw [e1]; omega

/-- Row p of the second summand's block at point t is row 4000·t + p of its array. -/
theorem blk1_apply (c : Dev nD) (t : Fin cfg1.N) (p : Fin 4000) (q : Fin 64) (r : Fin 100000)
    (hr : r.val = t.val * 4000 + p.val) :
    (iblk1 (F := Ideal) V c 1 t : Vec Ideal S4000x64 .f32) (ix2 p q) = (V c main_v13 : S100000x64.Idx → EReal) (ix2 r q) := by
  unfold iblk1
  rw [View.read_apply]
  show V c main_v13 (((cfg1.win 1).blk t).view.emb (ix2 p q)) = V c main_v13 (ix2 r q)
  refine congrArg (V c main_v13) (funext fun a => Fin.ext ?_)
  obtain ⟨-, ⟨e0, e1⟩, -⟩ := idx_facts t
  match a with
  | ⟨0, _⟩ => show win1_1.index t (0 : Fin 2) * 4000 + 1 * p.val = r.val; rw [e0, hr]; omega
  | ⟨1, _⟩ => show win1_1.index t (1 : Fin 2) * 64 + 1 * q.val = q.val; rw [e1]; omega

/-- Row p of the scaling column's block at point t is row 4000·t + p of the column. -/
theorem blk2_apply (c : Dev nD) (t : Fin cfg1.N) (p : Fin 4000) (q : Fin 1) (r : Fin 100000)
    (hr : r.val = t.val * 4000 + p.val) :
    (iblk1 (F := Ideal) V c 2 t : Vec Ideal S4000x1 .f32) (ix2 p q) = (V c main_v12 : S100000x1.Idx → EReal) (ix2 r q) := by
  unfold iblk1
  rw [View.read_apply]
  show V c main_v12 (((cfg1.win 2).blk t).view.emb (ix2 p q)) = V c main_v12 (ix2 r q)
  refine congrArg (V c main_v12) (funext fun a => Fin.ext ?_)
  obtain ⟨-, -, ⟨e0, e1⟩, -⟩ := idx_facts t
  match a with
  | ⟨0, _⟩ => show win1_2.index t (0 : Fin 2) * 4000 + 1 * p.val = r.val; rw [e0, hr]; omega
  | ⟨1, _⟩ => show win1_2.index t (1 : Fin 2) * 1 + 1 * q.val = q.val; rw [e1]; omega

/-- The first bias is handed over whole at every point. -/
theorem blk3_eq (c : Dev nD) (t : Fin cfg1.N) :
    (iblk1 (F := Ideal) V c 3 t : Vec Ideal S1x64 .f32) = (V c main_v24 : S1x64.Idx → EReal) := by
  funext j
  unfold iblk1
  rw [View.read_apply]
  show V c main_v24 (((cfg1.win 3).blk t).view.emb j) = V c main_v24 j
  refine congrArg (V c main_v24) (funext fun a => Fin.ext ?_)
  obtain ⟨-, -, -, ⟨e0, e1⟩, -⟩ := idx_facts t
  match a with
  | ⟨0, _⟩ => show win1_3.index t (0 : Fin 2) * 1 + 1 * (j 0).val = (j 0).val; rw [e0]; omega
  | ⟨1, _⟩ => show win1_3.index t (1 : Fin 2) * 64 + 1 * (j 1).val = (j 1).val; rw [e1]; omega

/-- Row p of the node features' block at point t is row 4000·t + p of the features. -/
theorem blk4_apply (c : Dev nD) (t : Fin cfg1.N) (p : Fin 4000) (q : Fin 64) (r : Fin 100000)
    (hr : r.val = t.val * 4000 + p.val) :
    (iblk1 (F := Ideal) V c 4 t : Vec Ideal S4000x64 .f32) (ix2 p q) = (V c main_arg0 : S100000x64.Idx → EReal) (ix2 r q) := by
  unfold iblk1
  rw [View.read_apply]
  show V c main_arg0 (((cfg1.win 4).blk t).view.emb (ix2 p q)) = V c main_arg0 (ix2 r q)
  refine congrArg (V c main_arg0) (funext fun a => Fin.ext ?_)
  obtain ⟨-, -, -, -, ⟨e0, e1⟩, -⟩ := idx_facts t
  match a with
  | ⟨0, _⟩ => show win1_4.index t (0 : Fin 2) * 4000 + 1 * p.val = r.val; rw [e0, hr]; omega
  | ⟨1, _⟩ => show win1_4.index t (1 : Fin 2) * 64 + 1 * q.val = q.val; rw [e1]; omega

/-- The first dense layer's weight is handed over whole at every point. -/
theorem blk5_eq (c : Dev nD) (t : Fin cfg1.N) :
    (iblk1 (F := Ideal) V c 5 t : Vec Ideal S64x32 .f32) = (V c main_arg4 : S64x32.Idx → EReal) := by
  funext j
  unfold iblk1
  rw [View.read_apply]
  show V c main_arg4 (((cfg1.win 5).blk t).view.emb j) = V c main_arg4 j
  refine congrArg (V c main_arg4) (funext fun a => Fin.ext ?_)
  obtain ⟨-, -, -, -, -, ⟨e0, e1⟩, -⟩ := idx_facts t
  match a with
  | ⟨0, _⟩ => show win1_5.index t (0 : Fin 2) * 64 + 1 * (j 0).val = (j 0).val; rw [e0]; omega
  | ⟨1, _⟩ => show win1_5.index t (1 : Fin 2) * 32 + 1 * (j 1).val = (j 1).val; rw [e1]; omega

/-- The first dense layer's bias is handed over whole at every point. -/
theorem blk6_eq (c : Dev nD) (t : Fin cfg1.N) :
    (iblk1 (F := Ideal) V c 6 t : Vec Ideal S1x32 .f32) = (V c main_v25 : S1x32.Idx → EReal) := by
  funext j
  unfold iblk1
  rw [View.read_apply]
  show V c main_v25 (((cfg1.win 6).blk t).view.emb j) = V c main_v25 j
  refine congrArg (V c main_v25) (funext fun a => Fin.ext ?_)
  obtain ⟨-, -, -, -, -, -, ⟨e0, e1⟩, -⟩ := idx_facts t
  match a with
  | ⟨0, _⟩ => show win1_6.index t (0 : Fin 2) * 1 + 1 * (j 0).val = (j 0).val; rw [e0]; omega
  | ⟨1, _⟩ => show win1_6.index t (1 : Fin 2) * 32 + 1 * (j 1).val = (j 1).val; rw [e1]; omega

/-- The second dense layer's weight is handed over whole at every point. -/
theorem blk7_eq (c : Dev nD) (t : Fin cfg1.N) :
    (iblk1 (F := Ideal) V c 7 t : Vec Ideal S32x32 .f32) = (V c main_arg6 : S32x32.Idx → EReal) := by
  funext j
  unfold iblk1
  rw [View.read_apply]
  show V c main_arg6 (((cfg1.win 7).blk t).view.emb j) = V c main_arg6 j
  refine congrArg (V c main_arg6) (funext fun a => Fin.ext ?_)
  obtain ⟨-, -, -, -, -, -, -, ⟨e0, e1⟩, -⟩ := idx_facts t
  match a with
  | ⟨0, _⟩ => show win1_7.index t (0 : Fin 2) * 32 + 1 * (j 0).val = (j 0).val; rw [e0]; omega
  | ⟨1, _⟩ => show win1_7.index t (1 : Fin 2) * 32 + 1 * (j 1).val = (j 1).val; rw [e1]; omega

/-- The second dense layer's bias is handed over whole at every point. -/
theorem blk8_eq (c : Dev nD) (t : Fin cfg1.N) :
    (iblk1 (F := Ideal) V c 8 t : Vec Ideal S1x32 .f32) = (V c main_v26 : S1x32.Idx → EReal) := by
  funext j
  unfold iblk1
  rw [View.read_apply]
  show V c main_v26 (((cfg1.win 8).blk t).view.emb j) = V c main_v26 j
  refine congrArg (V c main_v26) (funext fun a => Fin.ext ?_)
  obtain ⟨-, -, -, -, -, -, -, -, ⟨e0, e1⟩, -⟩ := idx_facts t
  match a with
  | ⟨0, _⟩ => show win1_8.index t (0 : Fin 2) * 1 + 1 * (j 0).val = (j 0).val; rw [e0]; omega
  | ⟨1, _⟩ => show win1_8.index t (1 : Fin 2) * 32 + 1 * (j 1).val = (j 1).val; rw [e1]; omega

/-- The third dense layer's weight is handed over whole at every point. -/
theorem blk9_eq (c : Dev nD) (t : Fin cfg1.N) :
    (iblk1 (F := Ideal) V c 9 t : Vec Ideal S32x2 .f32) = (V c main_arg8 : S32x2.Idx → EReal) := by
  funext j
  unfold iblk1
  rw [View.read_apply]
  show V c main_arg8 (((cfg1.win 9).blk t).view.emb j) = V c main_arg8 j
  refine congrArg (V c main_arg8) (funext fun a => Fin.ext ?_)
  obtain ⟨-, -, -, -, -, -, -, -, -, ⟨e0, e1⟩, -⟩ := idx_facts t
  match a with
  | ⟨0, _⟩ => show win1_9.index t (0 : Fin 2) * 32 + 1 * (j 0).val = (j 0).val; rw [e0]; omega
  | ⟨1, _⟩ => show win1_9.index t (1 : Fin 2) * 2 + 1 * (j 1).val = (j 1).val; rw [e1]; omega

/-- The third dense layer's bias is handed over whole at every point. -/
theorem blk10_eq (c : Dev nD) (t : Fin cfg1.N) :
    (iblk1 (F := Ideal) V c 10 t : Vec Ideal S1x2 .f32) = (V c main_v27 : S1x2.Idx → EReal) := by
  funext j
  unfold iblk1
  rw [View.read_apply]
  show V c main_v27 (((cfg1.win 10).blk t).view.emb j) = V c main_v27 j
  refine congrArg (V c main_v27) (funext fun a => Fin.ext ?_)
  obtain ⟨-, -, -, -, -, -, -, -, -, -, ⟨e0, e1⟩, -⟩ := idx_facts t
  match a with
  | ⟨0, _⟩ => show win1_10.index t (0 : Fin 2) * 1 + 1 * (j 0).val = (j 0).val; rw [e0]; omega
  | ⟨1, _⟩ => show win1_10.index t (1 : Fin 2) * 2 + 1 * (j 1).val = (j 1).val; rw [e1]; omega

/-! ## The stored block against the array-level function -/

/-- Entry (p, o) of the result's block at point t sits at row 4000·t + p, column o of the result array. -/
theorem out_emb (t : Fin cfg1.N) (p : Fin 4000) (o : Fin 2) (r : Fin 100000) (hr : r.val = t.val * 4000 + p.val) :
    ((cfg1.win 11).blk t).view.emb (ix2 p o) = (ix2 r o : S100000x2.Idx) := by
  funext a
  apply Fin.ext
  obtain ⟨-, -, -, -, -, -, -, -, -, -, -, e0, e1⟩ := idx_facts t
  match a with
  | ⟨0, _⟩ => show win1_11.index t (0 : Fin 2) * 4000 + 1 * p.val = r.val; rw [e0, hr]; omega
  | ⟨1, _⟩ => show win1_11.index t (1 : Fin 2) * 2 + 1 * o.val = o.val; rw [e1]; omega

/-- At one entry: when row p of each row-blocked operand block is row r of its array, entry (p, o) of the stored
    block is entry (r, o) of the array-level function. -/
theorem point_eq (A0 A1 : FVec Ideal ⟨2, ![100000, 64]⟩ .f32) (A2 : FVec Ideal ⟨2, ![100000, 1]⟩ .f32)
    (A3 : FVec Ideal ⟨2, ![1, 64]⟩ .f32) (A4 : FVec Ideal ⟨2, ![100000, 64]⟩ .f32)
    (A5 : FVec Ideal ⟨2, ![64, 32]⟩ .f32) (A6 : FVec Ideal ⟨2, ![1, 32]⟩ .f32)
    (A7 : FVec Ideal ⟨2, ![32, 32]⟩ .f32) (A8 : FVec Ideal ⟨2, ![1, 32]⟩ .f32)
    (A9 : FVec Ideal ⟨2, ![32, 2]⟩ .f32) (A10 : FVec Ideal ⟨2, ![1, 2]⟩ .f32)
    (x0 x1 : Vec Ideal S4000x64 .f32) (x2 : Vec Ideal S4000x1 .f32) (x4 : Vec Ideal S4000x64 .f32)
    (p : Fin 4000) (o : Fin 2) (r : Fin 100000)
    (h0 : ∀ q, x0 (ix2 p q) = A0 (ix2 r q)) (h1 : ∀ q, x1 (ix2 p q) = A1 (ix2 r q))
    (h2 : x2 (ix2 p (0 : Fin 1)) = A2 (ix2 r (0 : Fin 1))) (h4 : ∀ q, x4 (ix2 p q) = A4 (ix2 r q)) :
    k1_pay1 (k1_pay2 x2 x0 x1 A3 x4 A5 A6 A7 A8) (k1_pay3 (F := Ideal)) A9 A10 (ix2 p o)
      = Cert.Gcn.outArr A0 A1 A2 A3 A4 A5 A6 A7 A8 A9 A10 (ix2 r o) := by
  rw [Pay.stored_apply]
  unfold Cert.Gcn.outArr
  refine congrArg (fun g => Cert.Gcn.mlp A5 (fun k => A6 (ix2 (0 : Fin 1) k)) A7 (fun k => A8 (ix2 (0 : Fin 1) k)) A9
    (fun k => A10 (ix2 (0 : Fin 1) k)) g o) (funext fun q => ?_)
  rw [h0 q, h1 q, h2, h4 q]

/-- What point t writes back is block t of the array-level function of the arrays the stage finds on entry. -/
theorem flushed_eq (c : Dev nD) (t : Fin cfg1.N) :
    (dat1 (F := Ideal) V c).flushed 11 t
      = ((cfg1.win 11).blk t).view.read (Elt Ideal)
          (Cert.Gcn.outArr (V c main_v23) (V c main_v13) (V c main_v12) (V c main_v24) (V c main_arg0)
            (V c main_arg4) (V c main_v25) (V c main_arg6) (V c main_v26) (V c main_arg8) (V c main_v27)) := by
  show (cfg1.win 11).cut (grid1.coords t) ((dat1 V c).after 11 t) = _
  rw [after1_11]
  unfold out1_11
  rw [View.canon_unit_zero zero_off]
  simp only [View.ld_unit_zero (S := S4000x64) zero_off, View.ld_unit_zero (S := S4000x1) zero_off,
    View.ld_unit_zero (S := S1x64) zero_off, View.ld_unit_zero (S := S64x32) zero_off,
    View.ld_unit_zero (S := S1x32) zero_off, View.ld_unit_zero (S := S32x32) zero_off,
    View.ld_unit_zero (S := S32x2) zero_off, View.ld_unit_zero (S := S1x2) zero_off]
  rw [blk3_eq V c t, blk5_eq V c t, blk6_eq V c t, blk7_eq V c t, blk8_eq V c t, blk9_eq V c t, blk10_eq V c t]
  funext j
  obtain ⟨p, o, rfl⟩ : ∃ (p : Fin 4000) (o : Fin 2), j = ix2 p o := ⟨j 0, j 1, eq_ix2 j⟩
  have ht : t.val < 25 := lt_of_lt_of_eq t.isLt N_1
  obtain ⟨r, hr⟩ : ∃ r : Fin 100000, r.val = t.val * 4000 + p.val :=
    ⟨⟨t.val * 4000 + p.val, by have := p.isLt; omega⟩, rfl⟩
  rw [View.read_apply, out_emb t p o r hr]
  exact point_eq (V c main_v23) (V c main_v13) (V c main_v12) (V c main_v24) (V c main_arg0) (V c main_arg4)
    (V c main_v25) (V c main_arg6) (V c main_v26) (V c main_arg8) (V c main_v27)
    (iblk1 V c 0 t) (iblk1 V c 1 t) (iblk1 V c 2 t) (iblk1 V c 4 t) p o r
    (fun q => blk0_apply V c t p q r hr) (fun q => blk1_apply V c t p q r hr) (blk2_apply V c t p 0 r hr)
    (fun q => blk4_apply V c t p q r hr)

/-! ## The blocks fill the result array -/

/-- An index of the result array is in point t's block iff each coordinate is in the block's range on its axis. -/
theorem mem_blk (t : Fin cfg1.N) (i : S100000x2.Idx) :
    i ∈ ((cfg1.win 11).blk t).view.set
      ↔ ∀ a : Fin 2, win1_11.index t a * S4000x2.size a ≤ (i a).val
          ∧ (i a).val < win1_11.index t a * S4000x2.size a + S4000x2.size a := by
  show i ∈ ((View.whole main_v28).slice (win1_11.rect t)).set ↔ _
  rw [View.set_slice_whole, Rect.mem_set_unit]
  exact Iff.rfl

/-- Row r of the result array lies in the block of point r / 4000, and every point writes its block back. -/
theorem cover (i : S100000x2.Idx) :
    ∃ t : Fin cfg1.N, (cfg1.win 11).flush t = true ∧ i ∈ ((cfg1.win 11).blk t).view.set := by
  have hi0 : (i 0).val < 100000 := (i 0).isLt
  have hi1 : (i 1).val < 2 := (i 1).isLt
  obtain ⟨t, ht⟩ : ∃ t : Fin cfg1.N, t.val = (i 0).val / 4000 :=
    ⟨⟨(i 0).val / 4000, lt_of_lt_of_eq (by omega : (i 0).val / 4000 < 25) N_1.symm⟩, rfl⟩
  refine ⟨t, flush1_11 t, ?_⟩
  rw [mem_blk]
  obtain ⟨-, -, -, -, -, -, -, -, -, -, -, e0, e1⟩ := idx_facts t
  intro a
  match a with
  | ⟨0, _⟩ =>
    show win1_11.index t (0 : Fin 2) * 4000 ≤ (i 0).val ∧ (i 0).val < win1_11.index t (0 : Fin 2) * 4000 + 4000
    rw [e0, ht]; omega
  | ⟨1, _⟩ =>
    show win1_11.index t (1 : Fin 2) * 2 ≤ (i 1).val ∧ (i 1).val < win1_11.index t (1 : Fin 2) * 2 + 2
    rw [e1]; omega

end Reg1

/-- The second stage's result array, from the arrays the stage finds on entry. -/
theorem reg1_final (V : (c : Dev nD) → (b : Ref sig .tc) → Buf (Elt Ideal) ((c : Thread nD τ).loc b)) (c : Dev nD) :
    ((dat1 (F := Ideal) V c).arrAt 11 cfg1.N : S100000x2.Idx → EReal)
      = Cert.Gcn.outArr (V c main_v23) (V c main_v13) (V c main_v12) (V c main_v24) (V c main_arg0)
          (V c main_arg4) (V c main_v25) (V c main_arg6) (V c main_v26) (V c main_arg8) (V c main_v27) :=
  (dat1 (F := Ideal) V c).arrAt_eq_of_cover 11
    (Cert.Gcn.outArr (V c main_v23) (V c main_v13) (V c main_v12) (V c main_v24) (V c main_arg0)
      (V c main_arg4) (V c main_v25) (V c main_arg6) (V c main_v26) (V c main_arg8) (V c main_v27))
    (fun t _ => Reg1.flushed_eq V c t) Reg1.cover

end Cert.KernelIdeal.KVal

end
-- ==== Proof.LibHostScatterAdd.lean ====
/-
  An accumulating scatter (`.at[idx].add(v)`) as it is printed, read at an entry.

  The printed scatter is a left fold over the update entries in row-major order: an entry whose result index is inside
  the operand replaces the operand's element there by the body applied to it and the update, an entry landing outside
  is dropped. When the body is addition in a commutative monoid the order is immaterial and the fold reads, at every
  entry `i` and for ANY dimension numbers, as the operand's entry plus the sum of the updates whose result index is `i`.
  The rank-one case with a column `[B, 1]` of scatter indices — `zeros(N).at[idx].add(v)` — then has update `j` landing
  at `idx j`, read as a signed integer and not clamped, when that is inside `[0, N)`.
-/
import Idealize.ShloMosaic.PureOps
import Idealize.ShloMosaic.Lib.ValueIdx
import Mathlib.Data.BitVec

noncomputable section

open Idealize.ShloMosaic Idealize.ShloMosaic.ValueIdx

namespace Cert.HostInt

/-- One step of the fold, read at an entry: the entry gains the update exactly when the update lands on it. -/
theorem scatter_step_apply {α : Type} [AddCommMonoid α] {s : Shape} (r : s.Idx → α) (o : Option s.Idx) (v : α) (i : s.Idx) :
    (match o with
      | some i0 => fun i' => if i' = i0 then r i0 + v else r i'
      | none => r) i = r i + if o = some i then v else 0 := by
  cases o with
  | none => simp
  | some i0 =>
    show (if i = i0 then r i0 + v else r i) = r i + if some i0 = some i then v else 0
    by_cases h : i = i0
    · subst h; simp
    · rw [if_neg h, if_neg (fun hh => h (Option.some.inj hh).symm), add_zero]

/-- THE ACCUMULATING SCATTER AT AN ENTRY, for any dimension numbers: the operand's entry plus the updates landing on it. -/
theorem scatter_add_apply {α : Type} [AddCommMonoid α] {s si u : Shape} {w : Nat} (d : ScatterDims s si u)
    (x : s.Idx → α) (idx : IVec si w) (upd : u.Idx → α) (i : s.Idx) :
    Host.scatter d (· + ·) x idx upd i = x i + ∑ j : u.Idx, if d.resultIdx? j idx = some i then upd j else 0 := by
  unfold Host.scatter
  have h : ∀ (l : List (Fin u.numel)) (r : s.Idx → α),
      (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
    intro l
    induction l with
    | nil => intro r; simp
    | cons n l ih =>
      intro r
      rw [List.foldl_cons, ih, scatter_step_apply, List.map_cons, List.sum_cons, add_assoc]
  refine (h (List.finRange u.numel) x).trans ?_
  rw [← Fin.sum_univ_def]
  refine congrArg (x i + ·) ?_
  exact Equiv.sum_comp u.rowMajor.symm fun j => if d.resultIdx? j idx = some i then upd j else 0

/-- The dimension numbers of `operand.at[idx].add(v)`: operand `[N]`, scatter indices `[B, 1]`, updates `[B]`. -/
abbrev colScatterDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

/-- The scatter-indices entry that update `j` reads. -/
abbrev colEntry {B : Nat} (j : Fin B) : (⟨2, ![B, 1]⟩ : Shape).Idx := ix2 j ⟨0, Nat.one_pos⟩

section
variable {N B w : Nat} (wf : ScatterDims.WF ⟨1, ![N]⟩ ⟨2, ![B, 1]⟩ ⟨1, ![B]⟩ [] [0] [0] 1)
  (idx : IVec ⟨2, ![B, 1]⟩ w) (j : Fin B)

theorem col_start : (colScatterDims N B wf).start (ix1 j) idx 0 = (idx (colEntry j)).toInt := by
  unfold ScatterDims.start
  rw [dif_pos (show (0 : Fin 1) ∈ (colScatterDims N B wf).scatterDimsToOperandDims from List.mem_singleton.mpr rfl)]
  have hsi : (colScatterDims N B wf).siIdx (ix1 j)
      ⟨List.idxOf (0 : Fin 1) (colScatterDims N B wf).scatterDimsToOperandDims,
        List.idxOf_lt_length_iff.2 (List.mem_singleton.mpr rfl)⟩ = colEntry j := by
    funext b; refine Fin.ext ?_
    match b with
    | ⟨0, _⟩ => rfl
    | ⟨1, _⟩ => rfl
  rw [hsi]

theorem col_window : (colScatterDims N B wf).window (ix1 j) 0 = 0 := by
  unfold ScatterDims.window
  rw [dif_neg]
  simp [ScatterDims.sKept, Shape.kept, List.mem_filter, List.mem_finRange]

/-- WHERE UPDATE `j` LANDS: at `idx j`, read signed, when that is an index of the operand; nowhere otherwise. -/
theorem resultIdx?_col :
    (colScatterDims N B wf).resultIdx? (ix1 j) idx
      = if h : 0 ≤ (idx (colEntry j)).toInt ∧ (idx (colEntry j)).toInt < N then
          some (ix1 ⟨(idx (colEntry j)).toInt.toNat, by omega⟩)
        else none := by
  unfold ScatterDims.resultIdx?
  by_cases h : 0 ≤ (idx (colEntry j)).toInt ∧ (idx (colEntry j)).toInt < N
  · have hall : ∀ a : Fin 1, 0 ≤ (colScatterDims N B wf).start (ix1 j) idx a + (colScatterDims N B wf).window (ix1 j) a
        ∧ (colScatterDims N B wf).start (ix1 j) idx a + (colScatterDims N B wf).window (ix1 j) a
          < ((⟨1, ![N]⟩ : Shape).size a : Int) := by
      intro a
      obtain rfl : a = 0 := Subsingleton.elim _ _
      show 0 ≤ (colScatterDims N B wf).start (ix1 j) idx 0 + (colScatterDims N B wf).window (ix1 j) 0
        ∧ (colScatterDims N B wf).start (ix1 j) idx 0 + (colScatterDims N B wf).window (ix1 j) 0 < (N : Int)
      rw [col_start, col_window]
      simpa using h
    rw [dif_pos hall, dif_pos h]
    refine congrArg some (funext fun a => Fin.ext ?_)
    obtain rfl : a = 0 := Subsingleton.elim _ _
    show ((colScatterDims N B wf).start (ix1 j) idx 0 + (colScatterDims N B wf).window (ix1 j) 0).toNat
      = (idx (colEntry j)).toInt.toNat
    rw [col_start, col_window]
    simp
  · rw [dif_neg h, dif_neg]
    intro hall
    have h0 : 0 ≤ (colScatterDims N B wf).start (ix1 j) idx 0 + (colScatterDims N B wf).window (ix1 j) 0
        ∧ (colScatterDims N B wf).start (ix1 j) idx 0 + (colScatterDims N B wf).window (ix1 j) 0 < (N : Int) := hall 0
    rw [col_start, col_window] at h0
    exact h (by simpa using h0)

end

/-- THE RANK-ONE ACCUMULATING SCATTER AT AN ENTRY: the operand's entry plus the updates whose start index, read
    signed, is `i`. -/
theorem scatter_add_col_apply {α : Type} [AddCommMonoid α] {N B w : Nat}
    (wf : ScatterDims.WF ⟨1, ![N]⟩ ⟨2, ![B, 1]⟩ ⟨1, ![B]⟩ [] [0] [0] 1)
    (x : (⟨1, ![N]⟩ : Shape).Idx → α) (idx : IVec ⟨2, ![B, 1]⟩ w) (upd : (⟨1, ![B]⟩ : Shape).Idx → α) (i : Fin N) :
    Host.scatter (colScatterDims N B wf) (· + ·) x idx upd (ix1 i)
      = x (ix1 i) + ∑ j : Fin B, if (idx (colEntry j)).toInt = (i.val : Int) then upd (ix1 j) else 0 := by
  rw [scatter_add_apply]
  refine congrArg (x (ix1 i) + ·) ?_
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val := congrArg (fun y : (⟨1, ![N]⟩ : Shape).Idx => (y 0).val) (Option.some.inj hh)
      omega
  · rw [dif_neg h, if_neg (by simp), if_neg (by omega)]

end Cert.HostInt

end
-- ==== Proof.KValueHost0.lean ====
/-
  The host operations before the first stage, as functions of the edge array.

  The edge array's two rows are sliced out and flattened into the vector of source words and the vector of target
  words. A vector of zeros receives a one through every target word (an integer scatter-add: the number of edges into
  each node, counted in 32-bit words); the count is converted to a float, one is added, the inverse square root is
  taken and the result is viewed as a column. Read at an index, each of these is the specification's entry. No
  operation of the stretch writes an argument.
-/
import proofs.«141030_j12884901888485_2_alg».proof.Proof.Gen.KernelIdeal.Launch
import proofs.«141030_j12884901888485_2_alg».proof.Proof.Spec
import proofs.«141030_j12884901888485_2_alg».proof.Proof.LibHostScatterAdd
import proofs.«141030_j12884901888485_2_alg».proof.Proof.LibKeepDims

noncomputable section

namespace Cert.KernelIdeal.KVal

open Idealize.ShloMosaic Idealize.ShloMosaic.TcCoe Idealize.ShloMosaic.ValueIdx Idealize.SL.Sem
open Cert.KernelIdeal Cert.KernelIdeal.Gen

/-! ## The stretch's results as functions of the edge array -/

/-- The source words: row 0 of the edge array, flattened. -/
def srcV (ei : IVec S2x1200000 32) : IVec S1200000 32 :=
  shapeCast S1200000 (extractStridedSlice S1x1200000 ![0, 0] ei Facts₀.slices_S2x1200000_S1x1200000_0_0)
    Facts₀.shapeCasts_S1x1200000_S1200000

/-- The target words: row 1 of the edge array, flattened. -/
def dstV (ei : IVec S2x1200000 32) : IVec S1200000 32 :=
  shapeCast S1200000 (extractStridedSlice S1x1200000 ![1, 0] ei Facts₀.slices_S2x1200000_S1x1200000_1_0)
    Facts₀.shapeCasts_S1x1200000_S1200000

/-- The number of edges into each node, in 32-bit words: zeros, plus a one through every target word. -/
def cntV (ei : IVec S2x1200000 32) : IVec S100000 32 :=
  Host.scatter scatter_S100000_S1200000x1_S1200000_n_0_0_1 IntOp.addi
    (broadcastInDim S100000 ![] Facts₀.bcast_S_S100000 (constantI S_ 32 0#32))
    (broadcastInDim S1200000x1 ![0] Facts₀.bcast_S1200000_S1200000x1_0 (dstV ei))
    (broadcastInDim S1200000 ![] Facts₀.bcast_S_S1200000 (constantI S_ 32 1#32))

/-- The column of inverse square roots of the count plus one. -/
def dcolV (ei : IVec S2x1200000 32) : FVec Ideal S100000x1 .f32 :=
  shapeCast S100000x1
    (Host.rsqrt (F := Ideal)
      (addf (sitofp .f32 (cntV ei))
        (broadcastInDim S100000 ![] Facts₀.bcast_S_S100000 (constant (F := Ideal) S_ .f32 0x3F800000#32))))
    Facts₀.shapeCasts_S100000_S100000x1

variable (W : Valuation τ sig (Elt Ideal))

theorem host0_v1 :
    (StableHlo.after (hostOps0 (F := Ideal)) W (Proc.devRef .tc main_v1) : S1200000.Idx → BitVec 32)
      = srcV (W (Proc.devRef .tc main_arg1)) := by
  after_results; rfl

theorem host0_v3 :
    (StableHlo.after (hostOps0 (F := Ideal)) W (Proc.devRef .tc main_v3) : S1200000.Idx → BitVec 32)
      = dstV (W (Proc.devRef .tc main_arg1)) := by
  after_results; rfl

theorem host0_v12 :
    (StableHlo.after (hostOps0 (F := Ideal)) W (Proc.devRef .tc main_v12) : S100000x1.Idx → EReal)
      = dcolV (W (Proc.devRef .tc main_arg1)) := by
  after_results; rfl

/-! ## The stretch leaves the arguments alone -/

theorem host0_arg0 : StableHlo.after (hostOps0 (F := Ideal)) W (Proc.devRef .tc main_arg0) = W (Proc.devRef .tc main_arg0) := by
  after_results
theorem host0_arg1 : StableHlo.after (hostOps0 (F := Ideal)) W (Proc.devRef .tc main_arg1) = W (Proc.devRef .tc main_arg1) := by
  after_results
theorem host0_arg2 : StableHlo.after (hostOps0 (F := Ideal)) W (Proc.devRef .tc main_arg2) = W (Proc.devRef .tc main_arg2) := by
  after_results
theorem host0_arg3 : StableHlo.after (hostOps0 (F := Ideal)) W (Proc.devRef .tc main_arg3) = W (Proc.devRef .tc main_arg3) := by
  after_results
theorem host0_arg4 : StableHlo.after (hostOps0 (F := Ideal)) W (Proc.devRef .tc main_arg4) = W (Proc.devRef .tc main_arg4) := by
  after_results
theorem host0_arg5 : StableHlo.after (hostOps0 (F := Ideal)) W (Proc.devRef .tc main_arg5) = W (Proc.devRef .tc main_arg5) := by
  after_results
theorem host0_arg6 : StableHlo.after (hostOps0 (F := Ideal)) W (Proc.devRef .tc main_arg6) = W (Proc.devRef .tc main_arg6) := by
  after_results
theorem host0_arg7 : StableHlo.after (hostOps0 (F := Ideal)) W (Proc.devRef .tc main_arg7) = W (Proc.devRef .tc main_arg7) := by
  after_results
theorem host0_arg8 : StableHlo.after (hostOps0 (F := Ideal)) W (Proc.devRef .tc main_arg8) = W (Proc.devRef .tc main_arg8) := by
  after_results
theorem host0_arg9 : StableHlo.after (hostOps0 (F := Ideal)) W (Proc.devRef .tc main_arg9) = W (Proc.devRef .tc main_arg9) := by
  after_results

/-! ## The results read at an index -/

/-- Source word `e` is the edge array's entry `(0, e)`. -/
theorem srcV_apply (ei : IVec S2x1200000 32) (e : Fin 1200000) : srcV ei (ix1 e) = Cert.Gcn.srcW ei e := by
  unfold srcV Cert.Gcn.srcW
  refine (shapeCast_apply _ Facts₀.shapeCasts_S1x1200000_S1200000 (ix1 e) (ix2 (0 : Fin 1) e) ?_).trans ?_
  · rw [Shape.rowMajor_val_two, Shape.rowMajor_val_one]
    show 0 * 1200000 + e.val = e.val
    omega
  · refine extractStridedSlice_apply ![0, 0] ei Facts₀.slices_S2x1200000_S1x1200000_0_0 (ix2 (0 : Fin 1) e) (ix2 (0 : Fin 2) e) fun a => ?_
    match a with
    | ⟨0, _⟩ => rfl
    | ⟨1, _⟩ => show e.val = 0 + e.val; omega

/-- Target word `e` is the edge array's entry `(1, e)`. -/
theorem dstV_apply (ei : IVec S2x1200000 32) (e : Fin 1200000) : dstV ei (ix1 e) = Cert.Gcn.dstW ei e := by
  unfold dstV Cert.Gcn.dstW
  refine (shapeCast_apply _ Facts₀.shapeCasts_S1x1200000_S1200000 (ix1 e) (ix2 (0 : Fin 1) e) ?_).trans ?_
  · rw [Shape.rowMajor_val_two, Shape.rowMajor_val_one]
    show 0 * 1200000 + e.val = e.val
    omega
  · refine extractStridedSlice_apply ![1, 0] ei Facts₀.slices_S2x1200000_S1x1200000_1_0 (ix2 (0 : Fin 1) e) (ix2 (1 : Fin 2) e) fun a => ?_
    match a with
    | ⟨0, _⟩ => rfl
    | ⟨1, _⟩ => show e.val = 0 + e.val; omega

/-- A vector spread into a column reads, at `(j, 0)`, the vector at `j`. -/
theorem colOf_apply (x : IVec S1200000 32) (j : Fin 1200000) :
    broadcastInDim S1200000x1 ![0] Facts₀.bcast_S1200000_S1200000x1_0 x (ix2 j (⟨0, Nat.one_pos⟩ : Fin 1)) = x (ix1 j) := by
  refine broadcastInDim_apply ![0] Facts₀.bcast_S1200000_S1200000x1_0 x _ (ix1 j) fun a => ?_
  match a with
  | ⟨0, _⟩ => rfl

/-- The count at node `v` is the specification's word sum. -/
theorem cntV_apply (ei : IVec S2x1200000 32) (v : Fin 100000) : cntV ei (ix1 v) = Cert.Gcn.cntW ei v := by
  unfold cntV Cert.Gcn.cntW
  refine (Cert.HostInt.scatter_add_col_apply (N := 100000) (B := 1200000)
    scatter_S100000_S1200000x1_S1200000_n_0_0_1.wf _ _ _ v).trans ?_
  refine congrArg₂ (· + ·) rfl (Finset.sum_congr rfl fun e _ => ?_)
  rw [show (broadcastInDim S1200000x1 ![0] Facts₀.bcast_S1200000_S1200000x1_0 (dstV ei)) (Cert.HostInt.colEntry e)
        = Cert.Gcn.dstW ei e from (colOf_apply (dstV ei) e).trans (dstV_apply ei e)]
  rfl

/-- The column at `(v, 0)` is the specification's `d v`. -/
theorem dcolV_apply (ei : IVec S2x1200000 32) (v : Fin 100000) :
    dcolV ei (ix2 v (0 : Fin 1)) = Cert.Gcn.dK ei v := by
  unfold dcolV Cert.Gcn.dK
  refine (Cert.Lib.KeepDims.shapeCast_a_a1_apply _ Facts₀.shapeCasts_S100000_S100000x1 v (0 : Fin 1)).trans ?_
  show Ideal.rsqrt ((((cntV ei (ix1 v)).toInt : ℝ) : EReal) + Cert.Gcn.ONE) = _
  rw [cntV_apply]

end Cert.KernelIdeal.KVal

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.LibGatherScatter.lean ====
/-
  Rows gathered through one column of words and scatter-added through another, read at an entry.

  Update row `e` is row `s e` of the table, where `s e` is the gather's word for `e` read signed and clamped into the
  table; it lands on the row named by the scatter's word for `e`, read signed, or nowhere. So entry `(r, k)` of the result
  is the operand's entry plus the sum, over the edges `e` whose scatter word is `r`, of the table's entry `(s e, k)`.
-/
import proofs.«141030_j12884901888485_2_alg».proof.Proof.LibHostGather
import proofs.«141030_j12884901888485_2_alg».proof.Proof.LibHostSegmentSum

noncomputable section

open Idealize.ShloMosaic Idealize.ShloMosaic.ValueIdx

namespace Cert.HostInt

/-- THE AGGREGATION AT AN ENTRY, over any number `B` of rows. -/
theorem scatterAdd_gather_rows_apply {B F N w : Nat} {φ : FTy} (hB : 0 < B)
    (wfg : GatherDims.WF ⟨2, ![B, F]⟩ ⟨2, ![N, 1]⟩ ⟨2, ![N, F]⟩ [1] [0] [] [0] [] 1 ![1, F])
    (wfs : ScatterDims.WF ⟨2, ![B, F]⟩ ⟨2, ![N, 1]⟩ ⟨2, ![N, F]⟩ [1] [0] [0] 1)
    (z x : FVec Ideal ⟨2, ![B, F]⟩ φ) (gi si : IVec ⟨2, ![N, 1]⟩ w) (s : Fin N → Fin B)
    (hs : ∀ e : Fin N, min (gi (colIdx e)).toInt.toNat (B - 1) = (s e).val) (r : Fin B) (k : Fin F) :
    Host.scatterAdd (F := Ideal) (segSumDims B F N wfs) z si (Host.gather (rowGatherDims B F N wfg) x gi) (ix2 r k)
      = z (ix2 r k) + ∑ e : Fin N, if (si (rowIdx e)).toInt = (r.val : Int) then x (ix2 (s e) k) else 0 := by
  rw [scatterAdd_rows_apply]
  refine congrArg (z (ix2 r k) + ·) (Finset.sum_congr rfl fun e _ => ?_)
  rw [gather_rows_apply hB]
  exact if_congr Iff.rfl (congrArg (fun t => x (ix2 t k)) (Fin.ext (hs e))) rfl

end Cert.HostInt

end
-- ==== Proof.KValueHost1.lean ====
/-
  The host operations between the two stages, as functions of the buffers they read.

  A negative source word is wrapped by the number of nodes (compare with zero, add the number of nodes, select); the
  first stage's rows are gathered through the wrapped words and added, through the target words, into an array of
  zeros; the four bias vectors are viewed as one-row arrays. Read at an entry, the summed array is the float zero
  plus, over the edges whose target word names the row, the first stage's entry at the row the source word names.
  No operation of the stretch writes an argument, the column of scale factors or the first stage's result.
-/
import proofs.«141030_j12884901888485_2_alg».proof.Proof.Gen.KernelIdeal.Launch
import proofs.«141030_j12884901888485_2_alg».proof.Proof.Spec
import proofs.«141030_j12884901888485_2_alg».proof.Proof.LibGatherScatter
import Idealize.ShloMosaic.Lib.Pipeline.Value

noncomputable section

namespace Cert.KernelIdeal.KVal

open Idealize.ShloMosaic Idealize.ShloMosaic.TcCoe Idealize.ShloMosaic.ValueIdx Idealize.SL.Sem
open Cert.KernelIdeal Cert.KernelIdeal.Gen

/-! ## The stretch's results as functions of what it reads -/

/-- The source words with the negative ones wrapped by the number of nodes. -/
def wrapV (s : IVec S1200000 32) : IVec S1200000 32 :=
  select (cmpi .slt s (broadcastInDim S1200000 ![] Facts₀.bcast_S_S1200000 (constantI S_ 32 0#32)))
    (addi s (broadcastInDim S1200000 ![] Facts₀.bcast_S_S1200000 (constantI S_ 32 100000#32))) s

/-- The rows of `hs` gathered through the wrapped source words and summed through the target words into zeros. -/
def aggV (hs : FVec Ideal S100000x64 .f32) (s d : IVec S1200000 32) : FVec Ideal S100000x64 .f32 :=
  Host.scatterAdd (F := Ideal) scatter_S100000x64_S1200000x1_S1200000x64_1_0_0_1
    (broadcastInDim S100000x64 ![] Facts₀.bcast_S_S100000x64 (constant (F := Ideal) S_ .f32 0x00000000#32))
    (broadcastInDim S1200000x1 ![0] Facts₀.bcast_S1200000_S1200000x1_0 d)
    (Host.gather gather_S100000x64_S1200000x1_S1200000x64_1_0_n_n_0_1_164 hs
      (broadcastInDim S1200000x1 ![0] Facts₀.bcast_S1200000_S1200000x1_0 (wrapV s)))

variable (W : Valuation τ sig (Elt Ideal))

theorem host1_v23 :
    (StableHlo.after (hostOps1 (F := Ideal)) W (Proc.devRef .tc main_v23) : S100000x64.Idx → EReal)
      = aggV (W (Proc.devRef .tc main_v13)) (W (Proc.devRef .tc main_v1)) (W (Proc.devRef .tc main_v3)) := by
  after_results; rfl

theorem host1_v24 :
    (StableHlo.after (hostOps1 (F := Ideal)) W (Proc.devRef .tc main_v24) : S1x64.Idx → EReal)
      = shapeCast S1x64 (W (Proc.devRef .tc main_arg3)) Facts₀.shapeCasts_S64_S1x64 := by
  after_results; rfl

theorem host1_v25 :
    (StableHlo.after (hostOps1 (F := Ideal)) W (Proc.devRef .tc main_v25) : S1x32.Idx → EReal)
      = shapeCast S1x32 (W (Proc.devRef .tc main_arg5)) Facts₀.shapeCasts_S32_S1x32 := by
  after_results; rfl

theorem host1_v26 :
    (StableHlo.after (hostOps1 (F := Ideal)) W (Proc.devRef .tc main_v26) : S1x32.Idx → EReal)
      = shapeCast S1x32 (W (Proc.devRef .tc main_arg7)) Facts₀.shapeCasts_S32_S1x32 := by
  after_results; rfl

theorem host1_v27 :
    (StableHlo.after (hostOps1 (F := Ideal)) W (Proc.devRef .tc main_v27) : S1x2.Idx → EReal)
      = shapeCast S1x2 (W (Proc.devRef .tc main_arg9)) Facts₀.shapeCasts_S2_S1x2 := by
  after_results; rfl

/-! ## What the stretch leaves alone -/

theorem host1_v12 : StableHlo.after (hostOps1 (F := Ideal)) W (Proc.devRef .tc main_v12) = W (Proc.devRef .tc main_v12) := by
  after_results
theorem host1_v13 : StableHlo.after (hostOps1 (F := Ideal)) W (Proc.devRef .tc main_v13) = W (Proc.devRef .tc main_v13) := by
  after_results
theorem host1_arg0 : StableHlo.after (hostOps1 (F := Ideal)) W (Proc.devRef .tc main_arg0) = W (Proc.devRef .tc main_arg0) := by
  after_results
theorem host1_arg4 : StableHlo.after (hostOps1 (F := Ideal)) W (Proc.devRef .tc main_arg4) = W (Proc.devRef .tc main_arg4) := by
  after_results
theorem host1_arg6 : StableHlo.after (hostOps1 (F := Ideal)) W (Proc.devRef .tc main_arg6) = W (Proc.devRef .tc main_arg6) := by
  after_results
theorem host1_arg8 : StableHlo.after (hostOps1 (F := Ideal)) W (Proc.devRef .tc main_arg8) = W (Proc.devRef .tc main_arg8) := by
  after_results

/-! ## The results read at an index -/

/-- A vector spread into a column reads, at `(j, 0)`, the vector at `j`. -/
theorem colOf_apply' (x : IVec S1200000 32) (j : Fin 1200000) :
    broadcastInDim S1200000x1 ![0] Facts₀.bcast_S1200000_S1200000x1_0 x (ix2 j (⟨0, Nat.one_pos⟩ : Fin 1)) = x (ix1 j) := by
  refine broadcastInDim_apply ![0] Facts₀.bcast_S1200000_S1200000x1_0 x _ (ix1 j) fun a => ?_
  match a with
  | ⟨0, _⟩ => rfl

/-- A wrapped word at an index is the specification's wrap of the word there. -/
theorem wrapV_apply (s : IVec S1200000 32) (e : Fin 1200000) : wrapV s (ix1 e) = Cert.Gcn.wrapW (s (ix1 e)) := rfl

/-- THE SUMMED ROWS AT AN ENTRY, for source and target vectors that read the edge array's words. -/
theorem aggV_apply (hs : FVec Ideal S100000x64 .f32) (s d : IVec S1200000 32) (ei : IVec S2x1200000 32)
    (hsrc : ∀ e : Fin 1200000, s (ix1 e) = Cert.Gcn.srcW ei e) (hdst : ∀ e : Fin 1200000, d (ix1 e) = Cert.Gcn.dstW ei e)
    (v : Fin 100000) (k : Fin 64) :
    aggV hs s d (ix2 v k)
      = Cert.Gcn.Z + ∑ e : Fin 1200000,
          if (Cert.Gcn.dstW ei e).toInt = (v.val : Int) then hs (ix2 (Cert.Gcn.rowOf (Cert.Gcn.srcW ei e)) k) else 0 := by
  unfold aggV
  refine (Cert.HostInt.scatterAdd_gather_rows_apply (B := 100000) (F := 64) (N := 1200000) (by decide)
    gather_S100000x64_S1200000x1_S1200000x64_1_0_n_n_0_1_164.wf scatter_S100000x64_S1200000x1_S1200000x64_1_0_0_1.wf
    _ hs _ _ (fun e => Cert.Gcn.rowOf (Cert.Gcn.srcW ei e)) (fun e => ?_) v k).trans ?_
  · rw [show (broadcastInDim S1200000x1 ![0] Facts₀.bcast_S1200000_S1200000x1_0 (wrapV s)) (Cert.HostInt.colIdx e)
        = Cert.Gcn.wrapW (Cert.Gcn.srcW ei e) from (colOf_apply' (wrapV s) e).trans ((wrapV_apply s e).trans (congrArg _ (hsrc e)))]
    rfl
  · refine congrArg₂ (· + ·) rfl (Finset.sum_congr rfl fun e _ => ?_)
    rw [show (broadcastInDim S1200000x1 ![0] Facts₀.bcast_S1200000_S1200000x1_0 d) (Cert.HostInt.rowIdx e)
        = Cert.Gcn.dstW ei e from (colOf_apply' d e).trans (hdst e)]

end Cert.KernelIdeal.KVal

end
-- ==== Proof.KValueMath.lean ====
/-
  The second stage's array, fed what the host operations hand it, is the first program's specification.

  At node `v` the second stage scales the summed messages plus the node's own scaled row by the column's entry, adds
  the bias, clips at zero and adds `x` back. With the column's entry `d v`, the scaled rows `h v · d v` and the summed
  messages the sum over the edges into `v` of the scaled row of the edge's source node, that is the specification's
  row; a bias vector viewed as a one-row array reads the vector's entry.
-/
import proofs.«141030_j12884901888485_2_alg».proof.Proof.KValueHost0
import proofs.«141030_j12884901888485_2_alg».proof.Proof.KValueHost1

noncomputable section

namespace Cert.KernelIdeal.KVal

open Idealize.ShloMosaic Idealize.ShloMosaic.TcCoe Idealize.ShloMosaic.ValueIdx Idealize.SL.Sem
open Cert.KernelIdeal Cert.KernelIdeal.Gen

/-- A vector `[a]` viewed as a one-row array `[1, a]` reads, at `(0, k)`, the vector at `k`. -/
theorem shapeCast_a_1a_apply {α : Type} {a : ℕ} (x : (⟨1, ![a]⟩ : Shape).Idx → α)
    (h : (⟨1, ![a]⟩ : Shape).ShapeCasts ⟨2, ![1, a]⟩) (u : Fin 1) (k : Fin a) :
    shapeCast ⟨2, ![1, a]⟩ x h (ix2 u k) = x (ix1 k) :=
  shapeCast_apply x h _ _ (by
    have hu : u.val = 0 := by omega
    rw [Shape.rowMajor_val_two, Shape.rowMajor_val_one]
    show k.val = u.val * a + k.val
    rw [hu, Nat.zero_mul, Nat.zero_add])

/-- The first stage's array at an entry, with the column the host computed: the specification's scaled row. -/
theorem hsArr_apply (x : FVec Ideal S100000x64 .f32) (Wg : FVec Ideal S64x64 .f32) (ei : IVec S2x1200000 32)
    (v : Fin 100000) (c : Fin 64) :
    Cert.Gcn.hsArr x Wg (dcolV ei) (ix2 v c) = Cert.Gcn.hsK x Wg ei v c := by
  show (∑ k : Fin 64, x (ix2 v k) * Wg (ix2 k c)) * dcolV ei (ix2 v (0 : Fin 1)) = Cert.Gcn.lin x Wg v c * Cert.Gcn.dK ei v
  rw [dcolV_apply]
  rfl

/-- Node `v`'s row going into the dense layers, as the second stage forms it, is the specification's. -/
theorem feat_apply (x : FVec Ideal S100000x64 .f32) (ei : IVec S2x1200000 32) (Wg : FVec Ideal S64x64 .f32)
    (bg : FVec Ideal S64 .f32) (v : Fin 100000) (c : Fin 64) :
    max (dcolV ei (ix2 v (0 : Fin 1))
          * (aggV (Cert.Gcn.hsArr x Wg (dcolV ei)) (srcV ei) (dstV ei) (ix2 v c) + Cert.Gcn.hsArr x Wg (dcolV ei) (ix2 v c))
          + shapeCast S1x64 bg Facts₀.shapeCasts_S64_S1x64 (ix2 (0 : Fin 1) c)) Cert.Gcn.Z + x (ix2 v c)
      = Cert.Gcn.featK x Wg bg ei v c := by
  rw [dcolV_apply, hsArr_apply, shapeCast_a_1a_apply,
    aggV_apply (Cert.Gcn.hsArr x Wg (dcolV ei)) (srcV ei) (dstV ei) ei (srcV_apply ei) (dstV_apply ei) v c]
  unfold Cert.Gcn.featK Cert.Gcn.rawK
  refine congrArg (fun t => max (Cert.Gcn.dK ei v * (Cert.Gcn.Z + t + Cert.Gcn.hsK x Wg ei v c) + bg (ix1 c)) Cert.Gcn.Z + x (ix2 v c)) ?_
  refine Finset.sum_congr rfl fun e _ => ?_
  rw [hsArr_apply]

/-- THE SECOND STAGE'S ARRAY OF THE HOST'S ARRAYS IS THE SPECIFICATION. -/
theorem outArr_host_eq_outK (x : FVec Ideal S100000x64 .f32) (ei : IVec S2x1200000 32) (Wg : FVec Ideal S64x64 .f32)
    (bg : FVec Ideal S64 .f32) (W1 : FVec Ideal S64x32 .f32) (b1 : FVec Ideal S32 .f32)
    (W2 : FVec Ideal S32x32 .f32) (b2 : FVec Ideal S32 .f32) (W3 : FVec Ideal S32x2 .f32) (b3 : FVec Ideal S2 .f32) :
    Cert.Gcn.outArr (aggV (Cert.Gcn.hsArr x Wg (dcolV ei)) (srcV ei) (dstV ei)) (Cert.Gcn.hsArr x Wg (dcolV ei)) (dcolV ei)
        (shapeCast S1x64 bg Facts₀.shapeCasts_S64_S1x64) x
        W1 (shapeCast S1x32 b1 Facts₀.shapeCasts_S32_S1x32)
        W2 (shapeCast S1x32 b2 Facts₀.shapeCasts_S32_S1x32)
        W3 (shapeCast S1x2 b3 Facts₀.shapeCasts_S2_S1x2)
      = Cert.Gcn.outK x ei Wg bg W1 b1 W2 b2 W3 b3 := by
  funext i
  obtain ⟨v, o, rfl⟩ : ∃ (v : Fin 100000) (o : Fin 2), i = ix2 v o := ⟨i 0, i 1, eq_ix2 i⟩
  have hb1 : (fun k : Fin 32 => shapeCast S1x32 b1 Facts₀.shapeCasts_S32_S1x32 (ix2 (0 : Fin 1) k)) = fun k => b1 (ix1 k) :=
    funext fun k => shapeCast_a_1a_apply b1 _ 0 k
  have hb2 : (fun k : Fin 32 => shapeCast S1x32 b2 Facts₀.shapeCasts_S32_S1x32 (ix2 (0 : Fin 1) k)) = fun k => b2 (ix1 k) :=
    funext fun k => shapeCast_a_1a_apply b2 _ 0 k
  have hb3 : (fun k : Fin 2 => shapeCast S1x2 b3 Facts₀.shapeCasts_S2_S1x2 (ix2 (0 : Fin 1) k)) = fun k => b3 (ix1 k) :=
    funext fun k => shapeCast_a_1a_apply b3 _ 0 k
  have hf : (fun c : Fin 64 => max (dcolV ei (ix2 v (0 : Fin 1))
          * (aggV (Cert.Gcn.hsArr x Wg (dcolV ei)) (srcV ei) (dstV ei) (ix2 v c) + Cert.Gcn.hsArr x Wg (dcolV ei) (ix2 v c))
          + shapeCast S1x64 bg Facts₀.shapeCasts_S64_S1x64 (ix2 (0 : Fin 1) c)) Cert.Gcn.Z + x (ix2 v c))
      = Cert.Gcn.featK x Wg bg ei v := funext fun c => feat_apply x ei Wg bg v c
  show Cert.Gcn.mlp W1 (fun k : Fin 32 => shapeCast S1x32 b1 Facts₀.shapeCasts_S32_S1x32 (ix2 (0 : Fin 1) k))
      W2 (fun k : Fin 32 => shapeCast S1x32 b2 Facts₀.shapeCasts_S32_S1x32 (ix2 (0 : Fin 1) k))
      W3 (fun k : Fin 2 => shapeCast S1x2 b3 Facts₀.shapeCasts_S2_S1x2 (ix2 (0 : Fin 1) k))
      (fun c : Fin 64 => max (dcolV ei (ix2 v (0 : Fin 1))
          * (aggV (Cert.Gcn.hsArr x Wg (dcolV ei)) (srcV ei) (dstV ei) (ix2 v c) + Cert.Gcn.hsArr x Wg (dcolV ei) (ix2 v c))
          + shapeCast S1x64 bg Facts₀.shapeCasts_S64_S1x64 (ix2 (0 : Fin 1) c)) Cert.Gcn.Z + x (ix2 v c)) o
    = Cert.Gcn.mlp W1 (fun k => b1 (ix1 k)) W2 (fun k => b2 (ix1 k)) W3 (fun k => b3 (ix1 k)) (Cert.Gcn.featK x Wg bg ei v) o
  rw [hb1, hb2, hb3, hf]

end Cert.KernelIdeal.KVal

end
-- ==== Proof.KValue.lean ====
/-
  The first program's result as a function of its arguments: the last stage's result array, read back through the
  host operations between the stages and before the first one, is the specification's array.

  The buffer contents at the stage boundaries are a fold from the launch memory. An argument is written by nothing, so
  it is read back to the launch memory at every boundary. The column of scale factors and the two word vectors are
  the first host stretch's functions of the edge array; the first stage's result is the scaled linear map of them;
  the summed messages and the one-row biases are the second stretch's functions of those. The last stage's array of
  all these is the specification's array.
-/
import proofs.«141030_j12884901888485_2_alg».proof.Proof.Gen.KernelIdeal.Frame
import proofs.«141030_j12884901888485_2_alg».proof.Proof.Spec
import proofs.«141030_j12884901888485_2_alg».proof.Proof.KReg0
import proofs.«141030_j12884901888485_2_alg».proof.Proof.KReg1
import proofs.«141030_j12884901888485_2_alg».proof.Proof.KValueMath

noncomputable section

namespace Cert.KernelIdeal.KVal

open Idealize.ShloMosaic Idealize.ShloMosaic.TcCoe Idealize.SL.Sem Cert.KernelIdeal Cert.KernelIdeal.Gen

section Walk

variable (m : (ℓ : Loc nD τ sig) → Buf (Elt Ideal) ℓ) (ρ : Dev nD → PrngReg) (c : Dev nD)

/-! ## At the first stage's entry: after the first host stretch -/

theorem v1_arg0 : V1 m ρ c main_arg0 = (m ((c.tc : Thread Cert.KernelIdeal.nD Cert.KernelIdeal.τ).loc Cert.KernelIdeal.main_arg0)) := host0_arg0 (W0 m ρ c)
theorem v1_arg2 : V1 m ρ c main_arg2 = (m ((c.tc : Thread Cert.KernelIdeal.nD Cert.KernelIdeal.τ).loc Cert.KernelIdeal.main_arg2)) := host0_arg2 (W0 m ρ c)
theorem v1_arg3 : V1 m ρ c main_arg3 = (m ((c.tc : Thread Cert.KernelIdeal.nD Cert.KernelIdeal.τ).loc Cert.KernelIdeal.main_arg3)) := host0_arg3 (W0 m ρ c)
theorem v1_arg4 : V1 m ρ c main_arg4 = (m ((c.tc : Thread Cert.KernelIdeal.nD Cert.KernelIdeal.τ).loc Cert.KernelIdeal.main_arg4)) := host0_arg4 (W0 m ρ c)
theorem v1_arg5 : V1 m ρ c main_arg5 = (m ((c.tc : Thread Cert.KernelIdeal.nD Cert.KernelIdeal.τ).loc Cert.KernelIdeal.main_arg5)) := host0_arg5 (W0 m ρ c)
theorem v1_arg6 : V1 m ρ c main_arg6 = (m ((c.tc : Thread Cert.KernelIdeal.nD Cert.KernelIdeal.τ).loc Cert.KernelIdeal.main_arg6)) := host0_arg6 (W0 m ρ c)
theorem v1_arg7 : V1 m ρ c main_arg7 = (m ((c.tc : Thread Cert.KernelIdeal.nD Cert.KernelIdeal.τ).loc Cert.KernelIdeal.main_arg7)) := host0_arg7 (W0 m ρ c)
theorem v1_arg8 : V1 m ρ c main_arg8 = (m ((c.tc : Thread Cert.KernelIdeal.nD Cert.KernelIdeal.τ).loc Cert.KernelIdeal.main_arg8)) := host0_arg8 (W0 m ρ c)
theorem v1_arg9 : V1 m ρ c main_arg9 = (m ((c.tc : Thread Cert.KernelIdeal.nD Cert.KernelIdeal.τ).loc Cert.KernelIdeal.main_arg9)) := host0_arg9 (W0 m ρ c)

theorem v1_v1 : (V1 m ρ c main_v1 : S1200000.Idx → BitVec 32) = srcV (m ((c.tc : Thread Cert.KernelIdeal.nD Cert.KernelIdeal.τ).loc Cert.KernelIdeal.main_arg1)) := host0_v1 (W0 m ρ c)
theorem v1_v3 : (V1 m ρ c main_v3 : S1200000.Idx → BitVec 32) = dstV (m ((c.tc : Thread Cert.KernelIdeal.nD Cert.KernelIdeal.τ).loc Cert.KernelIdeal.main_arg1)) := host0_v3 (W0 m ρ c)
theorem v1_v12 : (V1 m ρ c main_v12 : S100000x1.Idx → EReal) = dcolV (m ((c.tc : Thread Cert.KernelIdeal.nD Cert.KernelIdeal.τ).loc Cert.KernelIdeal.main_arg1)) := host0_v12 (W0 m ρ c)

/-! ## At the first stage's exit -/

/-- The first stage's result: the linear map with every row scaled by the column's entry. -/
theorem w2_v13 : (W2 m ρ c (Proc.devRef .tc main_v13) : S100000x64.Idx → EReal)
    = Cert.Gcn.hsArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (dcolV (m ((c.tc : Thread Cert.KernelIdeal.nD Cert.KernelIdeal.τ).loc Cert.KernelIdeal.main_arg1))) := by
  refine (W2_arr m ρ c 3).trans ((reg0_final (V1 m ρ) c).trans ?_)
  rw [v1_arg0, v1_arg2, v1_v12]

theorem w2_v12 : (W2 m ρ c (Proc.devRef .tc main_v12) : S100000x1.Idx → EReal) = dcolV (m ((c.tc : Thread Cert.KernelIdeal.nD Cert.KernelIdeal.τ).loc Cert.KernelIdeal.main_arg1)) :=
  (W2_arr m ρ c 2).trans ((((dat0 (V1 m ρ) c).arrAt_in 2 rfl _).trans (A_eq0 (V1 m ρ) c 2)).trans (v1_v12 m ρ c))

theorem w2_arg0 : W2 m ρ c (Proc.devRef .tc main_arg0) = (m ((c.tc : Thread Cert.KernelIdeal.nD Cert.KernelIdeal.τ).loc Cert.KernelIdeal.main_arg0)) :=
  (W2_arr m ρ c 0).trans ((((dat0 (V1 m ρ) c).arrAt_in 0 rfl _).trans (A_eq0 (V1 m ρ) c 0)).trans (v1_arg0 m ρ c))

theorem w2_v1 : (W2 m ρ c (Proc.devRef .tc main_v1) : S1200000.Idx → BitVec 32) = srcV (m ((c.tc : Thread Cert.KernelIdeal.nD Cert.KernelIdeal.τ).loc Cert.KernelIdeal.main_arg1)) :=
  (W2_of_ne m ρ c main_v1 (by decide)).trans (v1_v1 m ρ c)
theorem w2_v3 : (W2 m ρ c (Proc.devRef .tc main_v3) : S1200000.Idx → BitVec 32) = dstV (m ((c.tc : Thread Cert.KernelIdeal.nD Cert.KernelIdeal.τ).loc Cert.KernelIdeal.main_arg1)) :=
  (W2_of_ne m ρ c main_v3 (by decide)).trans (v1_v3 m ρ c)
theorem w2_arg3 : W2 m ρ c (Proc.devRef .tc main_arg3) = (m ((c.tc : Thread Cert.KernelIdeal.nD Cert.KernelIdeal.τ).loc Cert.KernelIdeal.main_arg3)) :=
  (W2_of_ne m ρ c main_arg3 (by decide)).trans (v1_arg3 m ρ c)
theorem w2_arg4 : W2 m ρ c (Proc.devRef .tc main_arg4) = (m ((c.tc : Thread Cert.KernelIdeal.nD Cert.KernelIdeal.τ).loc Cert.KernelIdeal.main_arg4)) :=
  (W2_of_ne m ρ c main_arg4 (by decide)).trans (v1_arg4 m ρ c)
theorem w2_arg5 : W2 m ρ c (Proc.devRef .tc main_arg5) = (m ((c.tc : Thread Cert.KernelIdeal.nD Cert.KernelIdeal.τ).loc Cert.KernelIdeal.main_arg5)) :=
  (W2_of_ne m ρ c main_arg5 (by decide)).trans (v1_arg5 m ρ c)
theorem w2_arg6 : W2 m ρ c (Proc.devRef .tc main_arg6) = (m ((c.tc : Thread Cert.KernelIdeal.nD Cert.KernelIdeal.τ).loc Cert.KernelIdeal.main_arg6)) :=
  (W2_of_ne m ρ c main_arg6 (by decide)).trans (v1_arg6 m ρ c)
theorem w2_arg7 : W2 m ρ c (Proc.devRef .tc main_arg7) = (m ((c.tc : Thread Cert.KernelIdeal.nD Cert.KernelIdeal.τ).loc Cert.KernelIdeal.main_arg7)) :=
  (W2_of_ne m ρ c main_arg7 (by decide)).trans (v1_arg7 m ρ c)
theorem w2_arg8 : W2 m ρ c (Proc.devRef .tc main_arg8) = (m ((c.tc : Thread Cert.KernelIdeal.nD Cert.KernelIdeal.τ).loc Cert.KernelIdeal.main_arg8)) :=
  (W2_of_ne m ρ c main_arg8 (by decide)).trans (v1_arg8 m ρ c)
theorem w2_arg9 : W2 m ρ c (Proc.devRef .tc main_arg9) = (m ((c.tc : Thread Cert.KernelIdeal.nD Cert.KernelIdeal.τ).loc Cert.KernelIdeal.main_arg9)) :=
  (W2_of_ne m ρ c main_arg9 (by decide)).trans (v1_arg9 m ρ c)

/-! ## At the second stage's entry: after the second host stretch -/

theorem v3_v23 : (V3 m ρ c main_v23 : S100000x64.Idx → EReal)
    = aggV (Cert.Gcn.hsArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (dcolV (m ((c.tc : Thread Cert.KernelIdeal.nD Cert.KernelIdeal.τ).loc Cert.KernelIdeal.main_arg1)))) (srcV (m ((c.tc : Thread Cert.KernelIdeal.nD Cert.KernelIdeal.τ).loc Cert.KernelIdeal.main_arg1))) (dstV (m ((c.tc : Thread Cert.KernelIdeal.nD Cert.KernelIdeal.τ).loc Cert.KernelIdeal.main_arg1))) := by
  refine (host1_v23 (W2 m ρ c)).trans ?_
  rw [w2_v13, w2_v1, w2_v3]

theorem v3_v13 : (V3 m ρ c main_v13 : S100000x64.Idx → EReal)
    = Cert.Gcn.hsArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (dcolV (m ((c.tc : Thread Cert.KernelIdeal.nD Cert.KernelIdeal.τ).loc Cert.KernelIdeal.main_arg1))) :=
  (host1_v13 (W2 m ρ c)).trans (w2_v13 m ρ c)

theorem v3_v12 : (V3 m ρ c main_v12 : S100000x1.Idx → EReal) = dcolV (m ((c.tc : Thread Cert.KernelIdeal.nD Cert.KernelIdeal.τ).loc Cert.KernelIdeal.main_arg1)) :=
  (host1_v12 (W2 m ρ c)).trans (w2_v12 m ρ c)

theorem v3_v24 : (V3 m ρ c main_v24 : S1x64.Idx → EReal) = shapeCast S1x64 (m ((c.tc : Thread Cert.KernelIdeal.nD Cert.KernelIdeal.τ).loc Cert.KernelIdeal.main_arg3)) Facts₀.shapeCasts_S64_S1x64 := by
  refine (host1_v24 (W2 m ρ c)).trans ?_
  rw [w2_arg3]
theorem v3_v25 : (V3 m ρ c main_v25 : S1x32.Idx → EReal) = shapeCast S1x32 (m ((c.tc : Thread Cert.KernelIdeal.nD Cert.KernelIdeal.τ).loc Cert.KernelIdeal.main_arg5)) Facts₀.shapeCasts_S32_S1x32 := by
  refine (host1_v25 (W2 m ρ c)).trans ?_
  rw [w2_arg5]
theorem v3_v26 : (V3 m ρ c main_v26 : S1x32.Idx → EReal) = shapeCast S1x32 (m ((c.tc : Thread Cert.KernelIdeal.nD Cert.KernelIdeal.τ).loc Cert.KernelIdeal.main_arg7)) Facts₀.shapeCasts_S32_S1x32 := by
  refine (host1_v26 (W2 m ρ c)).trans ?_
  rw [w2_arg7]
theorem v3_v27 : (V3 m ρ c main_v27 : S1x2.Idx → EReal) = shapeCast S1x2 (m ((c.tc : Thread Cert.KernelIdeal.nD Cert.KernelIdeal.τ).loc Cert.KernelIdeal.main_arg9)) Facts₀.shapeCasts_S2_S1x2 := by
  refine (host1_v27 (W2 m ρ c)).trans ?_
  rw [w2_arg9]

theorem v3_arg0 : V3 m ρ c main_arg0 = (m ((c.tc : Thread Cert.KernelIdeal.nD Cert.KernelIdeal.τ).loc Cert.KernelIdeal.main_arg0)) := (host1_arg0 (W2 m ρ c)).trans (w2_arg0 m ρ c)
theorem v3_arg4 : V3 m ρ c main_arg4 = (m ((c.tc : Thread Cert.KernelIdeal.nD Cert.KernelIdeal.τ).loc Cert.KernelIdeal.main_arg4)) := (host1_arg4 (W2 m ρ c)).trans (w2_arg4 m ρ c)
theorem v3_arg6 : V3 m ρ c main_arg6 = (m ((c.tc : Thread Cert.KernelIdeal.nD Cert.KernelIdeal.τ).loc Cert.KernelIdeal.main_arg6)) := (host1_arg6 (W2 m ρ c)).trans (w2_arg6 m ρ c)
theorem v3_arg8 : V3 m ρ c main_arg8 = (m ((c.tc : Thread Cert.KernelIdeal.nD Cert.KernelIdeal.τ).loc Cert.KernelIdeal.main_arg8)) := (host1_arg8 (W2 m ρ c)).trans (w2_arg8 m ρ c)

end Walk

/-- The result buffer's final contents are the specification's array of the argument arrays. -/
theorem kernel_value (m : (ℓ : Loc nD τ sig) → Buf (Elt Ideal) ℓ) (ρ : Dev nD → PrngReg) (c : Dev nD) :
    (W4 (F := Ideal) m ρ c (Proc.devRef .tc main_v28) : S100000x2.Idx → EReal)
      = Cert.Gcn.outK
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  refine (W4_arr m ρ c 11).trans ((reg1_final (V3 m ρ) c).trans ?_)
  rw [v3_v23, v3_v13, v3_v12, v3_v24, v3_arg0, v3_arg4, v3_v25, v3_arg6, v3_v26, v3_arg8, v3_v27]
  exact outArr_host_eq_outK _ _ _ _ _ _ _ _ _ _

end Cert.KernelIdeal.KVal

end
-- ==== Proof.RefValueWords.lean ====
/-
  The second program's edge words, read at an index.

  The program cuts the two rows out of the edge array, flattens each, and appends the node numbers 0, 1, …, 99999 to
  each: entry e of the result is the list's word when e is below 1200000 and the number e - 1200000 otherwise. A word
  about to drive a gather is first wrapped: a negative word has the number of nodes added.
-/
import proofs.«141030_j12884901888485_2_alg».proof.Proof.Gen.ReferenceIdeal.Read
import proofs.«141030_j12884901888485_2_alg».proof.Proof.Spec

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read Cert.Gcn

/-- The flattened first row of the edge array is the list of source words. -/
theorem src_slice (x1 : IVec ⟨2, ![2, 1200000]⟩ 32) (e : Fin 1200000) :
    val_main_v2 (F := Ideal) x1 (ix1 e) = srcW x1 e := by
  rw [val_main_v2_apply, val_main_v1_apply]
  unfold srcW
  congr 1
  funext a
  match a with
  | ⟨0, _⟩ => rfl
  | ⟨1, _⟩ => exact Fin.ext (Nat.mod_eq_of_lt e.isLt)

/-- The flattened second row of the edge array is the list of target words. -/
theorem dst_slice (x1 : IVec ⟨2, ![2, 1200000]⟩ 32) (e : Fin 1200000) :
    val_main_v5 (F := Ideal) x1 (ix1 e) = dstW x1 e := by
  rw [val_main_v5_apply, val_main_v4_apply]
  unfold dstW
  congr 1
  funext a
  match a with
  | ⟨0, _⟩ => rfl
  | ⟨1, _⟩ => exact Fin.ext (Nat.mod_eq_of_lt e.isLt)

/-- A list of 1200000 words followed by the numbers 0 … 99999, read at an entry. -/
theorem cat_apply (f : IVec ⟨1, ![1200000]⟩ 32) (g : Fin 1200000 → BitVec 32)
    (hf : ∀ e : Fin 1200000, f (ix1 e) = g e) (e : Fin 1300000) :
    concatenate S1300000 0 [⟨S1200000, f⟩, ⟨S100000, val_main_v0 (F := Ideal)⟩]
        concatenates_S1200000_S100000_S1300000_d0 (ix1 e) = catW g e := by
  unfold catW
  by_cases h : e.val < 1200000
  · rw [dif_pos h, ← hf]
    refine concatenate_pair_apply_left (s₁ := S1200000) (s₂ := S100000) (0 : Fin 1) f (val_main_v0 (F := Ideal)) _ (ix1 e) rfl
      (ix1 (⟨e.val, h⟩ : Fin 1200000)) ?_
    intro b
    obtain rfl : b = 0 := Subsingleton.elim _ _
    rfl
  · rw [dif_neg h]
    have h2 : e.val - 1200000 < 100000 := by have := e.isLt; omega
    refine (concatenate_pair_apply_right (s₁ := S1200000) (s₂ := S100000) (0 : Fin 1) f (val_main_v0 (F := Ideal)) _ (ix1 e) rfl rfl
      (ix1 (⟨e.val - 1200000, h2⟩ : Fin 100000)) ?_ ?_).trans ?_
    · intro b hb
      obtain rfl : b = 0 := Subsingleton.elim _ _
      exact absurd rfl hb
    · show e.val - 1200000 + 1200000 = e.val
      omega
    · rfl

/-- The source words with the loop edges appended. -/
theorem v3_apply (x1 : IVec ⟨2, ![2, 1200000]⟩ 32) (e : Fin 1300000) :
    val_main_v3 (F := Ideal) x1 (ix1 e) = catW (srcW x1) e := by
  unfold val_main_v3
  exact cat_apply _ _ (src_slice x1) e

/-- The target words with the loop edges appended. -/
theorem v6_apply (x1 : IVec ⟨2, ![2, 1200000]⟩ 32) (e : Fin 1300000) :
    val_main_v6 (F := Ideal) x1 (ix1 e) = catW (dstW x1) e := by
  unfold val_main_v6
  exact cat_apply _ _ (dst_slice x1) e

/-- The wrapped source words, as they drive the gather of the inverse square roots. -/
theorem v16_apply (x1 : IVec ⟨2, ![2, 1200000]⟩ 32) (e : Fin 1300000) :
    val_main_v16 (F := Ideal) x1 (ix1 e) = wrapW (catW (srcW x1) e) := by
  rw [val_main_v16_apply, val_main_v13_apply, val_main_v15_apply, val_main_v12_apply, val_main_v14_apply, v3_apply]
  rfl

/-- The wrapped target words. -/
theorem v23_apply (x1 : IVec ⟨2, ![2, 1200000]⟩ 32) (e : Fin 1300000) :
    val_main_v23 (F := Ideal) x1 (ix1 e) = wrapW (catW (dstW x1) e) := by
  rw [val_main_v23_apply, val_main_v20_apply, val_main_v22_apply, val_main_v19_apply, val_main_v21_apply, v6_apply]
  rfl

/-- The wrapped source words, as they drive the gather of the rows. -/
theorem v32_apply (x1 : IVec ⟨2, ![2, 1200000]⟩ 32) (e : Fin 1300000) :
    val_main_v32 (F := Ideal) x1 (ix1 e) = wrapW (catW (srcW x1) e) := by
  rw [val_main_v32_apply, val_main_v29_apply, val_main_v31_apply, val_main_v28_apply, val_main_v30_apply, v3_apply]
  rfl

/-- A vector of 1300000 entries laid out as a column: entry (e, 0) of the column is entry e of the vector. -/
theorem col_idx (e : Fin 1300000) (z : Fin 1) :
    (fun a : Fin 1 => match a with
      | ⟨0, _⟩ => (⟨((ix2 e z : (⟨2, ![1300000, 1]⟩ : Shape).Idx) 0).val, ((ix2 e z : (⟨2, ![1300000, 1]⟩ : Shape).Idx) 0).isLt⟩ : Fin 1300000))
      = (ix1 e : (⟨1, ![1300000]⟩ : Shape).Idx) := by
  funext a
  match a with
  | ⟨0, _⟩ => rfl

/-- The target words as a column: the scatter indices of the degree. -/
theorem v9_apply (x1 : IVec ⟨2, ![2, 1200000]⟩ 32) (e : Fin 1300000) (z : Fin 1) :
    val_main_v9 (F := Ideal) x1 (ix2 e z) = catW (dstW x1) e := by
  rw [val_main_v9_apply]
  exact (congrArg (val_main_v6 (F := Ideal) x1) (col_idx e z)).trans (v6_apply x1 e)

/-- The target words as a column: the scatter indices of the messages. -/
theorem v39_apply (x1 : IVec ⟨2, ![2, 1200000]⟩ 32) (e : Fin 1300000) (z : Fin 1) :
    val_main_v39 (F := Ideal) x1 (ix2 e z) = catW (dstW x1) e := by
  rw [val_main_v39_apply]
  exact (congrArg (val_main_v6 (F := Ideal) x1) (col_idx e z)).trans (v6_apply x1 e)

/-- The wrapped source words as a column. -/
theorem v17_apply (x1 : IVec ⟨2, ![2, 1200000]⟩ 32) (e : Fin 1300000) (z : Fin 1) :
    val_main_v17 (F := Ideal) x1 (ix2 e z) = wrapW (catW (srcW x1) e) := by
  rw [val_main_v17_apply]
  exact (congrArg (val_main_v16 (F := Ideal) x1) (col_idx e z)).trans (v16_apply x1 e)

/-- The wrapped target words as a column. -/
theorem v24_apply (x1 : IVec ⟨2, ![2, 1200000]⟩ 32) (e : Fin 1300000) (z : Fin 1) :
    val_main_v24 (F := Ideal) x1 (ix2 e z) = wrapW (catW (dstW x1) e) := by
  rw [val_main_v24_apply]
  exact (congrArg (val_main_v23 (F := Ideal) x1) (col_idx e z)).trans (v23_apply x1 e)

/-- The wrapped source words as a column, for the gather of the rows. -/
theorem v33_apply (x1 : IVec ⟨2, ![2, 1200000]⟩ 32) (e : Fin 1300000) (z : Fin 1) :
    val_main_v33 (F := Ideal) x1 (ix2 e z) = wrapW (catW (srcW x1) e) := by
  rw [val_main_v33_apply]
  exact (congrArg (val_main_v32 (F := Ideal) x1) (col_idx e z)).trans (v32_apply x1 e)

end Cert.ReferenceIdeal.RefValue

end
-- ==== Proof.LibIdealEntries.lean ====
/-
  The rank-one accumulating float scatter at the ideal instance, read at an entry.

  `zeros(N).at[idx].add(v)` for a float vector `v : [B]` and a column `[B, 1]` of scatter indices is printed as the
  float scatter-add. At the ideal instance its value at entry `i` is the operand's entry plus the exact sum of the
  updates landing on `i`; update `j` lands at `idx j`, read as a signed integer and not clamped, when that is an index
  of the operand, and is dropped otherwise. So entry `i` is the operand's entry plus the sum of `v j` over the `j` whose
  index word, read signed, is `i` — with `v` all ones, the segment count.
-/
import proofs.«141030_j12884901888485_2_alg».proof.Proof.LibHostScatterAdd
import Idealize.ShloMosaic.PureOps.Ideal

noncomputable section

open Idealize.ShloMosaic Idealize.ShloMosaic.ValueIdx

namespace Cert.HostInt

/-- THE RANK-ONE FLOAT SCATTER-ADD AT AN ENTRY, at the ideal instance: the operand's entry plus the updates whose start
    index, read signed, is `i`. -/
theorem scatterAdd_col_apply {N B w : Nat} {φ : FTy}
    (wf : ScatterDims.WF ⟨1, ![N]⟩ ⟨2, ![B, 1]⟩ ⟨1, ![B]⟩ [] [0] [0] 1)
    (x : FVec Ideal ⟨1, ![N]⟩ φ) (idx : IVec ⟨2, ![B, 1]⟩ w) (upd : FVec Ideal ⟨1, ![B]⟩ φ) (i : Fin N) :
    Host.scatterAdd (F := Ideal) (colScatterDims N B wf) x idx upd (ix1 i)
      = x (ix1 i) + ∑ j : Fin B, if (idx (colEntry j)).toInt = (i.val : Int) then upd (ix1 j) else 0 := by
  show Ideal.hostScatterAdd (colScatterDims N B wf) x idx upd (ix1 i) = _
  unfold Ideal.hostScatterAdd
  refine congrArg (x (ix1 i) + ·) ?_
  rw [Finset.sum_filter]
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val :=
        congrArg (fun y : (⟨1, ![N]⟩ : Shape).Idx => (y 0).val) (Option.some.inj hh)
      omega
  · rw [dif_neg h, if_neg (by simp), if_neg (by omega)]

end Cert.HostInt

end
-- ==== Proof.RefValueDeg.lean ====
/-
  The degree and its inverse square root in the second program, read at a node.

  The degree is a float scatter-add of ones through the target words (loop edges included) into zeros: at node v it is
  the zero word plus one for every listed edge whose target word, read signed, is v.
-/
import proofs.«141030_j12884901888485_2_alg».proof.Proof.RefValueWords
import proofs.«141030_j12884901888485_2_alg».proof.Proof.LibIdealEntries

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read Cert.Gcn

/-- The degree at node v. -/
theorem deg_apply (x1 : IVec ⟨2, ![2, 1200000]⟩ 32) (v : Fin 100000) :
    val_main_v10 (F := Ideal) x1 (ix1 v) = degR x1 v := by
  unfold val_main_v10 degR
  refine (Cert.HostInt.scatterAdd_col_apply (N := 100000) (B := 1300000) (φ := .f32)
    scatter_S100000_S1300000x1_S1300000_n_0_0_1_wf
    (val_main_v8 (F := Ideal)) (val_main_v9 (F := Ideal) x1) (val_main_v7 (F := Ideal)) v).trans ?_
  refine congrArg₂ (· + ·) ?_ (Finset.sum_congr rfl fun e _ => ?_)
  · rw [val_main_v8_apply, val_main_cst_0_apply]
    rfl
  · rw [v9_apply, val_main_v7_apply, val_main_cst_apply]
    rfl

/-- The inverse square root of the degree at node v. -/
theorem d_apply (x1 : IVec ⟨2, ![2, 1200000]⟩ 32) (v : Fin 100000) :
    val_main_v11 (F := Ideal) x1 (ix1 v) = dR x1 v := by
  rw [val_main_v11_apply, deg_apply, dR, Ideal.hostUnary_rsqrt_def]

end Cert.ReferenceIdeal.RefValue

end
-- ==== Proof.RefValueNorm.lean ====
/-
  The norm of a listed edge in the second program, read at an edge.

  The inverse square roots of the degrees are gathered twice, once through the wrapped source words and once through
  the wrapped target words; a gather reads its start index signed and clamps it into the node range. The norm of an
  edge is the product of the two gathered values.
-/
import proofs.«141030_j12884901888485_2_alg».proof.Proof.RefValueDeg
import proofs.«141030_j12884901888485_2_alg».proof.Proof.LibHostGather

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read Cert.Gcn

/-- The inverse square roots gathered through a column of wrapped words: entry e is the value at the node the word names. -/
theorem d_gather (x1 : IVec ⟨2, ![2, 1200000]⟩ 32) (idx : IVec ⟨2, ![1300000, 1]⟩ 32) (w : Fin 1300000 → BitVec 32)
    (hidx : ∀ e : Fin 1300000, idx (Cert.HostInt.colIdx e) = wrapW (w e)) (e : Fin 1300000) :
    Host.gather gather_S100000_S1300000x1_S1300000_n_0_n_n_0_1_1 (val_main_v11 (F := Ideal) x1) idx (ix1 e)
      = dR x1 (rowOf (w e)) := by
  refine (Cert.HostInt.gather_take_col_apply (B := 100000) (N := 1300000) (by omega)
    gather_S100000_S1300000x1_S1300000_n_0_n_n_0_1_1_wf (val_main_v11 (F := Ideal) x1) idx e).trans ?_
  rw [d_apply]
  refine congrArg (dR x1) (Fin.ext ?_)
  show min (idx (Cert.HostInt.colIdx e)).toInt.toNat (100000 - 1) = min (wrapW (w e)).toInt.toNat (100000 - 1)
  rw [hidx]

/-- The norm of listed edge e. -/
theorem norm_apply (x1 : IVec ⟨2, ![2, 1200000]⟩ 32) (e : Fin 1300000) :
    val_main_v26 (F := Ideal) x1 (ix1 e) = normR x1 e := by
  have h18 : val_main_v18 (F := Ideal) x1 (ix1 e) = dR x1 (rowOf (catW (srcW x1) e)) := by
    unfold val_main_v18
    exact d_gather x1 _ _ (fun e' => v17_apply x1 e' _) e
  have h25 : val_main_v25 (F := Ideal) x1 (ix1 e) = dR x1 (rowOf (catW (dstW x1) e)) := by
    unfold val_main_v25
    exact d_gather x1 _ _ (fun e' => v24_apply x1 e' _) e
  rw [val_main_v26_apply, h18, h25, normR, Ideal.mulf_def]

end Cert.ReferenceIdeal.RefValue

end
-- ==== Proof.RefValueAgg.lean ====
/-
  The aggregation of the second program, read at an entry.

  Every listed edge gathers the row of the linearly mapped features that its wrapped source word names, scales it by
  the edge's norm, and a float scatter-add through the target words sums the scaled rows at the nodes they land on,
  starting from zeros. Adding the bias, clipping at zero and adding the input row back gives the row that enters the
  dense layers.
-/
import proofs.«141030_j12884901888485_2_alg».proof.Proof.RefValueNorm
import proofs.«141030_j12884901888485_2_alg».proof.Proof.LibHostGather
import proofs.«141030_j12884901888485_2_alg».proof.Proof.LibHostSegmentSum

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read Cert.Gcn

/-- The left index of the linear map's sum. -/
theorem lidx27 (v : Fin 100000) (c k : Fin 64) : lidx_main_v27 (ix2 v c) k = ix2 v k := by
  funext a
  match a with
  | ⟨0, _⟩ => rfl
  | ⟨1, _⟩ => rfl

/-- The right index of the linear map's sum. -/
theorem ridx27 (v : Fin 100000) (c k : Fin 64) : ridx_main_v27 (ix2 v c) k = ix2 k c := by
  funext a
  match a with
  | ⟨0, _⟩ => rfl
  | ⟨1, _⟩ => rfl

/-- The node features after the linear map. -/
theorem h_apply (x0 : FVec Ideal ⟨2, ![100000, 64]⟩ .f32) (x2 : FVec Ideal ⟨2, ![64, 64]⟩ .f32) (v : Fin 100000) (c : Fin 64) :
    val_main_v27 (F := Ideal) x0 x2 (ix2 v c) = lin x0 x2 v c := by
  rw [val_main_v27_apply]
  unfold lin
  refine Finset.sum_congr rfl fun k _ => ?_
  rw [lidx27, ridx27]

/-- A column of 1300000 entries spread over 64 columns reads, at (e, c), entry e of the vector it came from. -/
theorem bcast_idx (e : Fin 1300000) (c : Fin 64) :
    idx_main_v35 (idx_main_v36 (ix2 e c)) = (ix1 e : (⟨1, ![1300000]⟩ : Shape).Idx) := by
  funext a
  match a with
  | ⟨0, _⟩ => rfl

/-- The message of listed edge e at column c: the row of the node its source word names, times the edge's norm. -/
theorem msg_apply (x0 : FVec Ideal ⟨2, ![100000, 64]⟩ .f32) (x1 : IVec ⟨2, ![2, 1200000]⟩ 32) (x2 : FVec Ideal ⟨2, ![64, 64]⟩ .f32) (e : Fin 1300000) (c : Fin 64) :
    val_main_v37 (F := Ideal) x0 x1 x2 (ix2 e c) = lin x0 x2 (rowOf (catW (srcW x1) e)) c * normR x1 e := by
  have h34 : val_main_v34 (F := Ideal) x0 x1 x2 (ix2 e c) = lin x0 x2 (rowOf (catW (srcW x1) e)) c := by
    unfold val_main_v34
    refine (Cert.HostInt.gather_rows_apply (B := 100000) (F := 64) (N := 1300000) (by omega)
      gather_S100000x64_S1300000x1_S1300000x64_1_0_n_n_0_1_164_wf (val_main_v27 (F := Ideal) x0 x2)
      (val_main_v33 (F := Ideal) x1) e c).trans ?_
    rw [h_apply]
    refine congrArg (fun r => lin x0 x2 r c) (Fin.ext ?_)
    show min (val_main_v33 (F := Ideal) x1 (Cert.HostInt.colIdx e)).toInt.toNat (100000 - 1)
      = min (wrapW (catW (srcW x1) e)).toInt.toNat (100000 - 1)
    rw [v33_apply]
  have h36 : val_main_v36 (F := Ideal) x1 (ix2 e c) = normR x1 e := by
    rw [val_main_v36_apply, val_main_v35_apply, bcast_idx]
    exact norm_apply x1 e
  rw [val_main_v37_apply, h34, h36, Ideal.mulf_def]

/-- The messages summed at node v, column c. -/
theorem agg_apply (x0 : FVec Ideal ⟨2, ![100000, 64]⟩ .f32) (x1 : IVec ⟨2, ![2, 1200000]⟩ 32) (x2 : FVec Ideal ⟨2, ![64, 64]⟩ .f32) (v : Fin 100000) (c : Fin 64) :
    val_main_v40 (F := Ideal) x0 x1 x2 (ix2 v c) = aggR x0 x2 x1 v c := by
  unfold val_main_v40 aggR
  refine (Cert.HostInt.scatterAdd_rows_apply (B := 100000) (F := 64) (N := 1300000) (φ := .f32)
    scatter_S100000x64_S1300000x1_S1300000x64_1_0_0_1_wf (val_main_v38 (F := Ideal)) (val_main_v39 (F := Ideal) x1)
    (val_main_v37 (F := Ideal) x0 x1 x2) v c).trans ?_
  refine congrArg₂ (· + ·) ?_ (Finset.sum_congr rfl fun e _ => ?_)
  · rw [val_main_v38_apply, val_main_cst_6_apply]
    rfl
  · rw [v39_apply, msg_apply]

/-- The bias spread over the rows reads, at (v, c), its entry c. -/
theorem bias_idx (v : Fin 100000) (c : Fin 64) :
    idx_main_v41 (idx_main_v42 (ix2 v c)) = (ix1 c : (⟨1, ![64]⟩ : Shape).Idx) := by
  funext a
  match a with
  | ⟨0, _⟩ => rfl

/-- Node v's row going into the dense layers. -/
theorem feat_apply (x0 : FVec Ideal ⟨2, ![100000, 64]⟩ .f32) (x1 : IVec ⟨2, ![2, 1200000]⟩ 32) (x2 : FVec Ideal ⟨2, ![64, 64]⟩ .f32) (x3 : FVec Ideal ⟨1, ![64]⟩ .f32) (v : Fin 100000) (c : Fin 64) :
    val_main_v45 (F := Ideal) x0 x1 x2 x3 (ix2 v c) = featR x0 x2 x3 x1 v c := by
  have h42 : val_main_v42 (F := Ideal) x3 (ix2 v c) = x3 (ix1 c) := by
    rw [val_main_v42_apply, val_main_v41_apply, bias_idx]
  rw [val_main_v45_apply, val_main_v44_apply, val_main_v43_apply, agg_apply, h42, val_main_call0_v0_apply,
    val_main_call0_cst_apply, featR]
  simp only [Ideal.addf_def, Ideal.maximumf_def, Ideal.ofBits_def]

end Cert.ReferenceIdeal.RefValue

end
-- ==== Proof.RefValue.lean ====
/-
  The second program's result as a function of its arguments: its run's result term, read one operation at a time, is
  the specification's array.

  Node v's row after the aggregation goes through three dense layers: a product with a weight matrix and a bias,
  clipped at zero after the first two. Each product is a sum over the row's entries, read entry by entry.
-/
import proofs.«141030_j12884901888485_2_alg».proof.Proof.Gen.ReferenceIdeal.Run
import proofs.«141030_j12884901888485_2_alg».proof.Proof.Gen.ReferenceIdeal.Read
import proofs.«141030_j12884901888485_2_alg».proof.Proof.Spec
import proofs.«141030_j12884901888485_2_alg».proof.Proof.RefValueAgg

noncomputable section

namespace Cert.ReferenceIdeal.RefValue

open Idealize.ShloMosaic Idealize.ShloMosaic.TcCoe Idealize.SL.Sem Cert.ReferenceIdeal Cert.ReferenceIdeal.Gen
open Idealize.ShloMosaic.ValueIdx Cert.ReferenceIdeal.Read Cert.Gcn

/-! The index functions of the three dense layers' sums. -/

theorem lidx46 (v : Fin 100000) (o : Fin 32) (k : Fin 64) : lidx_main_v46 (ix2 v o) k = ix2 v k := by
  funext a
  match a with
  | ⟨0, _⟩ => rfl
  | ⟨1, _⟩ => rfl

theorem ridx46 (v : Fin 100000) (o : Fin 32) (k : Fin 64) : ridx_main_v46 (ix2 v o) k = ix2 k o := by
  funext a
  match a with
  | ⟨0, _⟩ => rfl
  | ⟨1, _⟩ => rfl

theorem lidx51 (v : Fin 100000) (o : Fin 32) (k : Fin 32) : lidx_main_v51 (ix2 v o) k = ix2 v k := by
  funext a
  match a with
  | ⟨0, _⟩ => rfl
  | ⟨1, _⟩ => rfl

theorem ridx51 (v : Fin 100000) (o : Fin 32) (k : Fin 32) : ridx_main_v51 (ix2 v o) k = ix2 k o := by
  funext a
  match a with
  | ⟨0, _⟩ => rfl
  | ⟨1, _⟩ => rfl

theorem lidx56 (v : Fin 100000) (o : Fin 2) (k : Fin 32) : lidx_main_v56 (ix2 v o) k = ix2 v k := by
  funext a
  match a with
  | ⟨0, _⟩ => rfl
  | ⟨1, _⟩ => rfl

theorem ridx56 (v : Fin 100000) (o : Fin 2) (k : Fin 32) : ridx_main_v56 (ix2 v o) k = ix2 k o := by
  funext a
  match a with
  | ⟨0, _⟩ => rfl
  | ⟨1, _⟩ => rfl

/-- A bias of 32 entries spread over the rows reads, at (v, k), its entry k. -/
theorem bias1_idx (v : Fin 100000) (k : Fin 32) :
    idx_main_v47 (idx_main_v48 (ix2 v k)) = (ix1 k : (⟨1, ![32]⟩ : Shape).Idx) := by
  funext a
  match a with
  | ⟨0, _⟩ => rfl

theorem bias2_idx (v : Fin 100000) (k : Fin 32) :
    idx_main_v52 (idx_main_v53 (ix2 v k)) = (ix1 k : (⟨1, ![32]⟩ : Shape).Idx) := by
  funext a
  match a with
  | ⟨0, _⟩ => rfl

theorem bias3_idx (v : Fin 100000) (o : Fin 2) :
    idx_main_v57 (idx_main_v58 (ix2 v o)) = (ix1 o : (⟨1, ![2]⟩ : Shape).Idx) := by
  funext a
  match a with
  | ⟨0, _⟩ => rfl

/-- The first dense layer at (v, k1): the row's product with the weights, the bias, the clip at zero. -/
theorem layer1_apply (x0 : FVec Ideal ⟨2, ![100000, 64]⟩ .f32) (x1 : IVec ⟨2, ![2, 1200000]⟩ 32) (x2 : FVec Ideal ⟨2, ![64, 64]⟩ .f32) (x3 : FVec Ideal ⟨1, ![64]⟩ .f32) (x4 : FVec Ideal ⟨2, ![64, 32]⟩ .f32) (x5 : FVec Ideal ⟨1, ![32]⟩ .f32) (v : Fin 100000) (k1 : Fin 32) :
    val_main_v50 (F := Ideal) x0 x1 x2 x3 x4 x5 (ix2 v k1)
      = max ((∑ k0 : Fin 64, featR x0 x2 x3 x1 v k0 * x4 (ix2 k0 k1)) + x5 (ix1 k1)) Z := by
  have h46 : val_main_v46 (F := Ideal) x0 x1 x2 x3 x4 (ix2 v k1)
      = ∑ k0 : Fin 64, featR x0 x2 x3 x1 v k0 * x4 (ix2 k0 k1) := by
    rw [val_main_v46_apply]
    refine Finset.sum_congr rfl fun k0 _ => ?_
    rw [lidx46, ridx46, feat_apply]
  have h48 : val_main_v48 (F := Ideal) x5 (ix2 v k1) = x5 (ix1 k1) := by
    rw [val_main_v48_apply, val_main_v47_apply, bias1_idx]
  rw [val_main_v50_apply, val_main_v49_apply, h46, h48, val_main_call1_v0_apply, val_main_call1_cst_apply]
  simp only [Ideal.addf_def, Ideal.maximumf_def, Ideal.ofBits_def]

/-- The second dense layer at (v, k2). -/
theorem layer2_apply (x0 : FVec Ideal ⟨2, ![100000, 64]⟩ .f32) (x1 : IVec ⟨2, ![2, 1200000]⟩ 32) (x2 : FVec Ideal ⟨2, ![64, 64]⟩ .f32) (x3 : FVec Ideal ⟨1, ![64]⟩ .f32) (x4 : FVec Ideal ⟨2, ![64, 32]⟩ .f32) (x5 : FVec Ideal ⟨1, ![32]⟩ .f32) (x6 : FVec Ideal ⟨2, ![32, 32]⟩ .f32) (x7 : FVec Ideal ⟨1, ![32]⟩ .f32) (v : Fin 100000) (k2 : Fin 32) :
    val_main_v55 (F := Ideal) x0 x1 x2 x3 x4 x5 x6 x7 (ix2 v k2)
      = max ((∑ k1 : Fin 32,
          max ((∑ k0 : Fin 64, featR x0 x2 x3 x1 v k0 * x4 (ix2 k0 k1)) + x5 (ix1 k1)) Z * x6 (ix2 k1 k2))
            + x7 (ix1 k2)) Z := by
  have h51 : val_main_v51 (F := Ideal) x0 x1 x2 x3 x4 x5 x6 (ix2 v k2)
      = ∑ k1 : Fin 32,
          max ((∑ k0 : Fin 64, featR x0 x2 x3 x1 v k0 * x4 (ix2 k0 k1)) + x5 (ix1 k1)) Z * x6 (ix2 k1 k2) := by
    rw [val_main_v51_apply]
    refine Finset.sum_congr rfl fun k1 _ => ?_
    rw [lidx51, ridx51, layer1_apply]
  have h53 : val_main_v53 (F := Ideal) x7 (ix2 v k2) = x7 (ix1 k2) := by
    rw [val_main_v53_apply, val_main_v52_apply, bias2_idx]
  rw [val_main_v55_apply, val_main_v54_apply, h51, h53, val_main_call2_v0_apply, val_main_call2_cst_apply]
  simp only [Ideal.addf_def, Ideal.maximumf_def, Ideal.ofBits_def]

/-- The second program's result at (v, o): the three dense layers on node v's row. -/
theorem out_apply (x0 : FVec Ideal ⟨2, ![100000, 64]⟩ .f32) (x1 : IVec ⟨2, ![2, 1200000]⟩ 32) (x2 : FVec Ideal ⟨2, ![64, 64]⟩ .f32) (x3 : FVec Ideal ⟨1, ![64]⟩ .f32) (x4 : FVec Ideal ⟨2, ![64, 32]⟩ .f32) (x5 : FVec Ideal ⟨1, ![32]⟩ .f32) (x6 : FVec Ideal ⟨2, ![32, 32]⟩ .f32) (x7 : FVec Ideal ⟨1, ![32]⟩ .f32) (x8 : FVec Ideal ⟨2, ![32, 2]⟩ .f32) (x9 : FVec Ideal ⟨1, ![2]⟩ .f32)
    (v : Fin 100000) (o : Fin 2) :
    val_main_v59 (F := Ideal) x0 x1 x2 x3 x4 x5 x6 x7 x8 x9 (ix2 v o)
      = mlp x4 (fun k => x5 (ix1 k)) x6 (fun k => x7 (ix1 k)) x8 (fun k => x9 (ix1 k)) (featR x0 x2 x3 x1 v) o := by
  have h56 : val_main_v56 (F := Ideal) x0 x1 x2 x3 x4 x5 x6 x7 x8 (ix2 v o)
      = ∑ k2 : Fin 32,
          max ((∑ k1 : Fin 32,
            max ((∑ k0 : Fin 64, featR x0 x2 x3 x1 v k0 * x4 (ix2 k0 k1)) + x5 (ix1 k1)) Z * x6 (ix2 k1 k2))
              + x7 (ix1 k2)) Z * x8 (ix2 k2 o) := by
    rw [val_main_v56_apply]
    refine Finset.sum_congr rfl fun k2 _ => ?_
    rw [lidx56, ridx56, layer2_apply]
  have h58 : val_main_v58 (F := Ideal) x9 (ix2 v o) = x9 (ix1 o) := by
    rw [val_main_v58_apply, val_main_v57_apply, bias3_idx]
  rw [val_main_v59_apply, h56, h58, mlp, Ideal.addf_def]

/-- The run's result term is the specification's array of the argument arrays. -/
theorem ref_value (m : (ℓ : Loc nD τ sig) → Buf (Elt Ideal) ℓ) (c : Dev nD) :
    (Cert.ReferenceIdeal.Value.res_main_v59 (F := Ideal) m c : S100000x2.Idx → EReal)
      = Cert.Gcn.outR
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9)) := by
  rw [val_main_v59_eq]
  funext i
  obtain ⟨v, o, rfl⟩ : ∃ (v : Fin 100000) (o : Fin 2), i = ix2 v o := ⟨i 0, i 1, eq_ix2 i⟩
  exact out_apply _ _ _ _ _ _ _ _ _ _ v o

end Cert.ReferenceIdeal.RefValue

end
-- ==== Proof.LibWordSum.lean ====
/-
  A sum of machine integers that cannot wrap is the sum of the numbers.

  Addition of 32-bit words is addition modulo `2 ^ 32`. When the natural numbers the words denote add up to less than
  `2 ^ 32` no reduction ever happens, so the word sum denotes the natural sum; when they add up to less than `2 ^ 31`
  the sum is also nonnegative as a signed integer and its signed reading is the same number. A printed cumulative
  sum or count read with these is a statement about natural numbers.
-/
import Mathlib.Data.BitVec
import Mathlib.Algebra.BigOperators.Group.Finset.Basic

namespace Cert.HostInt

/-- The unsigned reading of a word sum is the natural sum, when that is below `2 ^ 32`. -/
theorem toNat_sum_of_lt {ι : Type} (s : Finset ι) (f : ι → BitVec 32) (h : ∑ i ∈ s, (f i).toNat < 2 ^ 32) :
    (∑ i ∈ s, f i).toNat = ∑ i ∈ s, (f i).toNat := by
  classical
  induction s using Finset.induction_on with
  | empty => simp
  | insert a s ha ih =>
    rw [Finset.sum_insert ha] at h ⊢
    rw [Finset.sum_insert ha, BitVec.toNat_add, ih (by omega), Nat.mod_eq_of_lt h]

/-- The signed reading of a word below `2 ^ 31` is its unsigned reading. -/
theorem toInt_eq_toNat_of_lt (x : BitVec 32) (h : x.toNat < 2 ^ 31) : x.toInt = (x.toNat : Int) := by
  rw [BitVec.toInt_eq_toNat_cond, if_pos (by omega)]

/-- The signed reading of a word sum is the natural sum, when that is below `2 ^ 31`. -/
theorem toInt_sum_of_lt {ι : Type} (s : Finset ι) (f : ι → BitVec 32) (h : ∑ i ∈ s, (f i).toNat < 2 ^ 31) :
    (∑ i ∈ s, f i).toInt = ((∑ i ∈ s, (f i).toNat : Nat) : Int) := by
  have h' := toNat_sum_of_lt s f (by omega)
  rw [toInt_eq_toNat_of_lt _ (by rw [h']; exact h), h']

end Cert.HostInt
-- ==== Proof.Bridge.lean ====
/-
  The two specifications agree on finite inputs.

  Write `P e` for "edge `e`'s target word, read signed, is `v`", `n v` for the number of such edges and
  `d v = 1 / √(n v + 1)`, a positive real. The count of edges in 32-bit words cannot wrap (at most 1200000 ones are
  added), so its signed reading is `n v`; the float sum of a one per listed edge, the loop edge `v → v` included, is
  `n v + 1` as well: the two programs scale by the same `d`. An edge into `v` has a target word in the node range,
  which wrapping and clamping leave alone, so the per-edge norm is `d (src e) · d v`, and the appended loop edge
  `v → v` contributes `h v · (d v · d v)`. With `x` and `W` finite every `h` is a real number, and

      d v · ( Σ_{P e} h(src e) · d(src e) + h v · d v )  =  Σ_{P e} h(src e) · (d(src e) · d v) + h v · (d v · d v)

  is distributivity in ℝ. The dense layers are then the same function of the same row.
-/
import proofs.«141030_j12884901888485_2_alg».proof.Proof.Spec
import proofs.«141030_j12884901888485_2_alg».proof.Proof.LibWordSum
import Idealize.ShloMosaic.PureOps.Ideal.Laws

noncomputable section

open scoped BigOperators

namespace Cert.Gcn

open Idealize.ShloMosaic Idealize.ShloMosaic.ValueIdx

/-! ## Constants, coercions, the split of the extended edge list -/

theorem Z_eq : Z = 0 := Ideal.ofBits_zero_f32

theorem ONE_eq : ONE = ((1 : ℝ) : EReal) := by
  show Ideal.ofBits .f32 0x3F800000#32 = _
  simp [Ideal.ofBits, Ideal.ieee, -EReal.coe_mul]; norm_num

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the extended list is the sum over the given edges plus the sum over the loop edges. -/
theorem sum_split {M : Type*} [AddCommMonoid M] (f : Fin 1300000 → M) :
    ∑ e : Fin 1300000, f e
      = ∑ e : Fin 1200000, f ⟨e.val, by omega⟩ + ∑ j : Fin 100000, f ⟨1200000 + j.val, by omega⟩ :=
  Fin.sum_univ_add (a := 1200000) (b := 100000) (f : Fin (1200000 + 100000) → M)

theorem catW_lo (f : Fin 1200000 → BitVec 32) (e : Fin 1200000) : catW f ⟨e.val, by omega⟩ = f e := by
  unfold catW
  rw [dif_pos (show e.val < 1200000 from e.isLt)]

theorem catW_hi (f : Fin 1200000 → BitVec 32) (j : Fin 100000) :
    catW f ⟨1200000 + j.val, by omega⟩ = BitVec.ofNat 32 j.val := by
  unfold catW
  rw [dif_neg (show ¬ (1200000 + j.val < 1200000) by omega)]
  show BitVec.ofNat 32 (1200000 + j.val - 1200000) = _
  rw [Nat.add_sub_cancel_left]

theorem toInt_ofNat_node (j : Fin 100000) : (BitVec.ofNat 32 j.val).toInt = (j.val : Int) := by
  have hj := j.isLt
  have h : (BitVec.ofNat 32 j.val).toNat = j.val := by
    rw [BitVec.toNat_ofNat]; exact Nat.mod_eq_of_lt (by omega)
  rw [Cert.HostInt.toInt_eq_toNat_of_lt _ (by rw [h]; omega), h]

/-- A word that is not negative is not wrapped. -/
theorem wrapW_of_nonneg (w : BitVec 32) (h : 0 ≤ w.toInt) : wrapW w = w := by
  unfold wrapW IntOp.cmpi
  have hs : w.slt 0#32 = false := by
    simp only [BitVec.slt, BitVec.toInt_zero, decide_eq_false_iff_not, not_lt]; exact h
  simp only [hs]
  exact select_zero _ _

/-- A word naming node `v` gathers row `v`. -/
theorem rowOf_of_eq (w : BitVec 32) (v : Fin 100000) (h : w.toInt = (v.val : Int)) : rowOf w = v := by
  have hv := v.isLt
  unfold rowOf
  apply Fin.ext
  show min (wrapW w).toInt.toNat (100000 - 1) = v.val
  rw [wrapW_of_nonneg w (by omega), h, Int.toNat_natCast]
  omega

/-! ## The degree -/

/-- The number of edges into `v`. -/
def count (ei : IVec ⟨2, ![2, 1200000]⟩ 32) (v : Fin 100000) : ℕ :=
  (Finset.univ.filter fun e : Fin 1200000 => (dstW ei e).toInt = (v.val : Int)).card

theorem count_le (ei : IVec ⟨2, ![2, 1200000]⟩ 32) (v : Fin 100000) : count ei v ≤ 1200000 := by
  unfold count
  refine (Finset.card_filter_le _ _).trans ?_
  rw [Finset.card_univ, Fintype.card_fin]

/-- The word count, read signed, is the count: at most 1200000 ones never wrap. -/
theorem cntW_toInt (ei : IVec ⟨2, ![2, 1200000]⟩ 32) (v : Fin 100000) : (cntW ei v).toInt = (count ei v : Int) := by
  unfold cntW
  rw [BitVec.zero_add]
  have hs : ∑ e : Fin 1200000, (if (dstW ei e).toInt = (v.val : Int) then (1#32 : BitVec 32) else 0).toNat = count ei v := by
    unfold count
    rw [Finset.card_filter]
    refine Finset.sum_congr rfl fun e _ => ?_
    split_ifs <;> rfl
  have hle := count_le ei v
  rw [Cert.HostInt.toInt_sum_of_lt _ _ (by rw [hs]; omega), hs]

/-- `d v`, as a real number. -/
def dv (ei : IVec ⟨2, ![2, 1200000]⟩ 32) (v : Fin 100000) : ℝ := (Real.sqrt ((count ei v : ℝ) + 1))⁻¹

theorem rsqrt_count (n : ℕ) : Ideal.rsqrt ((((n : ℝ) + 1 : ℝ)) : EReal) = (((Real.sqrt ((n : ℝ) + 1))⁻¹ : ℝ) : EReal) := by
  have hpos : (0 : ℝ) < (n : ℝ) + 1 := by positivity
  rw [Ideal.rsqrt_coe, if_neg (not_lt.mpr hpos.le), if_neg hpos.ne']

theorem dK_eq (ei : IVec ⟨2, ![2, 1200000]⟩ 32) (v : Fin 100000) : dK ei v = (dv ei v : EReal) := by
  unfold dK dv
  rw [cntW_toInt, ONE_eq, ← EReal.coe_add, Int.cast_natCast]
  exact rsqrt_count _

theorem degR_eq (ei : IVec ⟨2, ![2, 1200000]⟩ 32) (v : Fin 100000) :
    degR ei v = ((((count ei v : ℝ) + 1 : ℝ)) : EReal) := by
  unfold degR
  rw [Z_eq, zero_add, sum_split]
  have h1 : ∑ e : Fin 1200000, (if (catW (dstW ei) ⟨e.val, by omega⟩).toInt = (v.val : Int) then ONE else 0)
      = ((count ei v : ℝ) : EReal) := by
    have : ∀ e : Fin 1200000, (if (catW (dstW ei) ⟨e.val, by omega⟩).toInt = (v.val : Int) then ONE else 0)
        = (((if (dstW ei e).toInt = (v.val : Int) then (1 : ℝ) else 0 : ℝ)) : EReal) := by
      intro e
      rw [catW_lo]
      split_ifs
      · exact ONE_eq
      · exact EReal.coe_zero.symm
    rw [Finset.sum_congr rfl fun e _ => this e, ← coe_sum]
    refine congrArg (fun r : ℝ => (r : EReal)) ?_
    unfold count
    rw [Finset.sum_boole]
  have h2 : ∑ j : Fin 100000, (if (catW (dstW ei) ⟨1200000 + j.val, by omega⟩).toInt = (v.val : Int) then ONE else 0)
      = ((1 : ℝ) : EReal) := by
    have : ∀ j : Fin 100000, (if (catW (dstW ei) ⟨1200000 + j.val, by omega⟩).toInt = (v.val : Int) then ONE else 0)
        = if j = v then ONE else 0 := by
      intro j
      rw [catW_hi, toInt_ofNat_node]
      refine if_congr ?_ rfl rfl
      constructor
      · intro h; exact Fin.ext (by exact_mod_cast h)
      · intro h; rw [h]
    rw [Finset.sum_congr rfl fun j _ => this j, Finset.sum_ite_eq' Finset.univ v, if_pos (Finset.mem_univ _), ONE_eq]
  rw [h1, h2, ← EReal.coe_add]

theorem dR_eq (ei : IVec ⟨2, ![2, 1200000]⟩ 32) (v : Fin 100000) : dR ei v = (dv ei v : EReal) := by
  unfold dR dv
  rw [degR_eq]
  exact rsqrt_count _

/-! ## The aggregation, with `x` and `W` real -/

section Agg

variable (x : FVec Ideal ⟨2, ![100000, 64]⟩ .f32) (Wg : FVec Ideal ⟨2, ![64, 64]⟩ .f32) (ei : IVec ⟨2, ![2, 1200000]⟩ 32)
  (xr : (⟨2, ![100000, 64]⟩ : Shape).Idx → ℝ) (wr : (⟨2, ![64, 64]⟩ : Shape).Idx → ℝ)
  (hx : ∀ i, x i = (xr i : EReal)) (hW : ∀ i, Wg i = (wr i : EReal))

/-- `(x · W)(v, c)` over the reals. -/
def linR (xr : (⟨2, ![100000, 64]⟩ : Shape).Idx → ℝ) (wr : (⟨2, ![64, 64]⟩ : Shape).Idx → ℝ) (v : Fin 100000) (c : Fin 64) : ℝ :=
  ∑ k : Fin 64, xr (ix2 v k) * wr (ix2 k c)

include hx hW in
theorem lin_eq (v : Fin 100000) (c : Fin 64) : lin x Wg v c = (linR xr wr v c : EReal) := by
  unfold lin linR
  rw [coe_sum]
  refine Finset.sum_congr rfl fun k _ => ?_
  rw [hx, hW, EReal.coe_mul]

include hx hW in
theorem hsK_eq (v : Fin 100000) (c : Fin 64) : hsK x Wg ei v c = ((linR xr wr v c * dv ei v : ℝ) : EReal) := by
  unfold hsK
  rw [lin_eq x Wg xr wr hx hW, dK_eq, EReal.coe_mul]

include hx hW in
theorem rawK_eq (v : Fin 100000) (c : Fin 64) :
    rawK x Wg ei v c
      = ((∑ e : Fin 1200000, if (dstW ei e).toInt = (v.val : Int) then
            linR xr wr (rowOf (srcW ei e)) c * dv ei (rowOf (srcW ei e)) else 0 : ℝ) : EReal) := by
  unfold rawK
  rw [Z_eq, zero_add, coe_sum]
  refine Finset.sum_congr rfl fun e _ => ?_
  split_ifs
  · exact hsK_eq x Wg ei xr wr hx hW _ _
  · exact EReal.coe_zero.symm

include hx hW in
theorem aggR_eq (v : Fin 100000) (c : Fin 64) :
    aggR x Wg ei v c
      = (((∑ e : Fin 1200000, if (dstW ei e).toInt = (v.val : Int) then
            linR xr wr (rowOf (srcW ei e)) c * (dv ei (rowOf (srcW ei e)) * dv ei v) else 0)
          + linR xr wr v c * (dv ei v * dv ei v) : ℝ) : EReal) := by
  unfold aggR normR
  rw [Z_eq, zero_add, sum_split, EReal.coe_add]
  refine congrArg₂ (· + ·) ?_ ?_
  · rw [coe_sum]
    refine Finset.sum_congr rfl fun e _ => ?_
    beta_reduce
    rw [catW_lo (dstW ei) e, catW_lo (srcW ei) e]
    split_ifs with hP
    · rw [rowOf_of_eq _ v hP, lin_eq x Wg xr wr hx hW, dR_eq, dR_eq, ← EReal.coe_mul, ← EReal.coe_mul]
    · exact EReal.coe_zero.symm
  · rw [Finset.sum_eq_single v]
    · beta_reduce
      rw [catW_hi (dstW ei) v, catW_hi (srcW ei) v, if_pos (toInt_ofNat_node v),
        rowOf_of_eq _ v (toInt_ofNat_node v), lin_eq x Wg xr wr hx hW, dR_eq, ← EReal.coe_mul, ← EReal.coe_mul]
    · intro j _ hj
      beta_reduce
      rw [catW_hi (dstW ei) j, if_neg]
      rw [toInt_ofNat_node]
      intro h
      exact hj (Fin.ext (by exact_mod_cast h))
    · intro h
      exact absurd (Finset.mem_univ _) h

include hx hW in
/-- The two forms of the aggregated row agree: distributivity over the reals. -/
theorem agg_eq (v : Fin 100000) (c : Fin 64) :
    dK ei v * (rawK x Wg ei v c + hsK x Wg ei v c) = aggR x Wg ei v c := by
  rw [dK_eq, rawK_eq x Wg ei xr wr hx hW, hsK_eq x Wg ei xr wr hx hW, aggR_eq x Wg ei xr wr hx hW,
    ← EReal.coe_add, ← EReal.coe_mul]
  refine congrArg (fun r : ℝ => (r : EReal)) ?_
  rw [mul_add, Finset.mul_sum]
  refine congrArg₂ (· + ·) (Finset.sum_congr rfl fun e _ => ?_) (by ring)
  split_ifs
  · ring
  · exact mul_zero _

end Agg

/-- THE TWO SPECIFICATIONS AGREE when the node features and the first weight matrix are finite. -/
theorem out_eq (x : FVec Ideal ⟨2, ![100000, 64]⟩ .f32) (ei : IVec ⟨2, ![2, 1200000]⟩ 32) (Wg : FVec Ideal ⟨2, ![64, 64]⟩ .f32)
    (bg : FVec Ideal ⟨1, ![64]⟩ .f32) (W1 : FVec Ideal ⟨2, ![64, 32]⟩ .f32) (b1 : FVec Ideal ⟨1, ![32]⟩ .f32)
    (W2 : FVec Ideal ⟨2, ![32, 32]⟩ .f32) (b2 : FVec Ideal ⟨1, ![32]⟩ .f32)
    (W3 : FVec Ideal ⟨2, ![32, 2]⟩ .f32) (b3 : FVec Ideal ⟨1, ![2]⟩ .f32)
    (hx : ∀ i, ∃ r : ℝ, x i = (r : EReal)) (hW : ∀ i, ∃ r : ℝ, Wg i = (r : EReal)) :
    outK x ei Wg bg W1 b1 W2 b2 W3 b3 = outR x ei Wg bg W1 b1 W2 b2 W3 b3 := by
  choose xr hxr using hx
  choose wr hwr using hW
  funext i
  obtain ⟨v, o, rfl⟩ : ∃ (v : Fin 100000) (o : Fin 2), i = ix2 v o := ⟨i 0, i 1, eq_ix2 i⟩
  show mlp W1 _ W2 _ W3 _ (featK x Wg bg ei v) o = mlp W1 _ W2 _ W3 _ (featR x Wg bg ei v) o
  refine congrArg (fun g => mlp W1 _ W2 _ W3 _ g o) ?_
  funext c
  unfold featK featR
  rw [agg_eq x Wg ei xr wr hxr hwr]

end Cert.Gcn

end
-- ==== Proof.Finite.lean ====
/-
  Finite inputs are real numbers.

  The precondition is the conjunction, over the float arguments, of "every entry's absolute value is below +∞". At the
  ideal values an entry is an extended real, its absolute value is `max x (-x)`, and the word 0x7F800000 is `⊤`; so the
  conjunct for an argument says that none of its entries is `⊤` or `⊥`, that is, every entry is a real number.
-/
import proofs.«141030_j12884901888485_2_alg».proof.Pre_finite_inputs
import Idealize.ShloMosaic.Lib.ReduceAll
import Idealize.ShloMosaic.Lib.ValueIdx
import Idealize.ShloMosaic.PureOps.Ideal.Laws

noncomputable section

namespace Cert.Gcn.Finite

open Idealize.ShloMosaic Idealize.ShloMosaic.ValueIdx

instance : Subsingleton Cert.Pre_finite_inputs.S_.Idx := ⟨fun a b => funext fun d => d.elim0⟩

/-- The word of +∞ denotes `⊤`. -/
theorem inf_word : Ideal.ofBits .f32 0x7F800000#32 = ⊤ := by simp [Ideal.ofBits, Ideal.ieee]

/-- An extended real whose absolute value is below +∞ is a real number. -/
theorem real_of_abs_lt {x : EReal}
    (h : Ideal.cmp .olt (max x (-x)) (Ideal.ofBits .f32 0x7F800000#32) = 1#1) : ∃ r : ℝ, x = (r : EReal) := by
  rw [inf_word] at h
  have h' : max x (-x) < ⊤ := by
    by_contra hn
    unfold Ideal.cmp at h
    simp only [hn, decide_false] at h
    exact absurd h (by decide)
  induction x using EReal.rec with
  | bot => simp at h'
  | top => simp at h'
  | coe r => exact ⟨r, rfl⟩

open Cert.Pre_finite_inputs in
/-- From the precondition: every entry of the node features and of the first weight matrix is a real number. -/
theorem x_W_real [Cert.Pre_finite_inputs.Facts]
    (a0 : FVec Ideal S100000x64 .f32) (a1 : IVec S2x1200000 32) (a2 : FVec Ideal S64x64 .f32) (a3 : FVec Ideal S64 .f32)
    (a4 : FVec Ideal S64x32 .f32) (a5 : FVec Ideal S32 .f32) (a6 : FVec Ideal S32x32 .f32) (a7 : FVec Ideal S32 .f32)
    (a8 : FVec Ideal S32x2 .f32) (a9 : FVec Ideal S2 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a2 i = (r : EReal)) := by
  have h0 := congrFun h ix0
  dsimp only [Cert.Pre_finite_inputs.fn, Cert.Pre_finite_inputs.fn_part1, Cert.Pre_finite_inputs.fn_part2] at h0
  have p1 := (IntOp.andi_eq_one.1 h0).1
  have p2 := (IntOp.andi_eq_one.1 p1).1
  have p3 := (IntOp.andi_eq_one.1 p2).1
  have p4 := (IntOp.andi_eq_one.1 p3).1
  have p5 := (IntOp.andi_eq_one.1 p4).1
  have p6 := (IntOp.andi_eq_one.1 p5).1
  have p7 := (IntOp.andi_eq_one.1 p6).1
  obtain ⟨hx, hw⟩ := IntOp.andi_eq_one.1 p7
  exact ⟨fun i => real_of_abs_lt (Host.reduce_andi_all _ _ _ _ _ hx i),
    fun i => real_of_abs_lt (Host.reduce_andi_all _ _ _ _ _ hw i)⟩

end Cert.Gcn.Finite

end
-- ==== Proof.lean ====
/-
  A graph-convolution layer with a residual connection and three dense layers, on 100000 nodes with 64 features and
  1200000 edges: a program in two dense stages around a gather and a scatter-add, against the plain formulation.

  Both programs compute, for every node `v`, the three dense layers of `max(a v + b, 0) + x v`, where `a v` aggregates
  the linearly mapped features `h = x · W` of the nodes with an edge into `v` (and of `v` itself) under the symmetric
  normalisation `d(src) · d(tgt)`, `d v = 1/√(1 + number of edges into v)`. One program scales the rows of `h` by `d`
  before the edges are followed and the summed rows by `d` again afterwards, adding the node's own row densely; the other
  appends a loop edge per node and scales every message by the product. On finite inputs every `h` and `d` is a real
  number and the two aggregations are equal by distributivity (Proof/Bridge.lean); what each program computes is read off
  its run (the first program's two stages and the host operations between them: Proof/KReg0, KReg1, KValue, KRun; the
  second's operations one at a time: Proof/RefValue); the precondition gives the finiteness (Proof/Finite.lean).
  The frames are the generated runs; the idealization rewrote nothing.
-/
import proofs.«141030_j12884901888485_2_alg».proof.Defs
import proofs.«141030_j12884901888485_2_alg».proof.Proof.Gen.Kernel
import proofs.«141030_j12884901888485_2_alg».proof.Proof.Gen.Kernel.Frame
import proofs.«141030_j12884901888485_2_alg».proof.Proof.Gen.KernelIdeal
import proofs.«141030_j12884901888485_2_alg».proof.Proof.Gen.KernelIdeal.Frame
import proofs.«141030_j12884901888485_2_alg».proof.Proof.Gen.ReferenceIdeal
import proofs.«141030_j12884901888485_2_alg».proof.Proof.Gen.Pre_finite_inputs
import proofs.«141030_j12884901888485_2_alg».proof.Proof.Gen.ReferenceIdeal.Run
import proofs.«141030_j12884901888485_2_alg».proof.Proof.Gen.ReferenceIdeal.Read
import proofs.«141030_j12884901888485_2_alg».proof.Proof.KRun
import proofs.«141030_j12884901888485_2_alg».proof.Proof.KValue
import proofs.«141030_j12884901888485_2_alg».proof.Proof.RefValue
import proofs.«141030_j12884901888485_2_alg».proof.Proof.Bridge
import proofs.«141030_j12884901888485_2_alg».proof.Proof.Finite

noncomputable section

namespace Cert.Proof

open Idealize.ShloMosaic Idealize.ShloMosaic.TcCoe Idealize.SL.Sem

/-- At the ideal values the two programs, run from memories agreeing on the arguments, end with the same result: each
    program's result is its specification's array of the arguments, and the two specifications agree on finite inputs. -/
theorem algebraic :
    @Cert.algebraic_KernelIdeal_ReferenceIdeal Cert.KernelIdeal.Gen.facts Cert.ReferenceIdeal.Gen.facts
      Cert.Pre_finite_inputs.Gen.facts := by
  intro m ρ m' ρ' hpre hagree
  haveI := Cert.Pre_finite_inputs.Gen.facts
  have hfin := fun c => Cert.Gcn.Finite.x_W_real _ _ _ _ _ _ _ _ _ _ (hpre c)
  refine ⟨fun c => Cert.Gcn.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KVal.kernel_value m ρ c), (h c).2⟩)
      (Cert.KernelIdeal.KVal.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.ref_value m' c, e0, e1, e2, e3, e4, e5, e6, e7, e8, e9]
    exact (Cert.Gcn.out_eq _ _ _ _ _ _ _ _ _ _ (hfin c).1 (hfin c).2).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
